-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S128x128 : Shape := ⟨2, ![128, 128]⟩
abbrev S1000000 : Shape := ⟨1, ![1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S100000x128 .f32) (main_arg1 : FVec F S50000x128 .f32) (main_arg2 : FVec F S128x128 .f32) (main_arg3 : FVec F S128x128 .f32) (main_arg4 : FVec F S128x128 .f32) (main_arg5 : FVec F S128x128 .f32) (main_arg6 : IVec S1000000 32) (main_arg7 : IVec S1000000 32) (main_arg8 : IVec S1000000 32) (main_arg9 : IVec S1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S100000x128 : Shape := ⟨2, ![100000, 128]⟩
abbrev S50000x128 : Shape := ⟨2, ![50000, 128]⟩
abbrev S128x128 : Shape := ⟨2, ![128, 128]⟩
abbrev S1000000 : Shape := ⟨1, ![1000000]⟩
abbrev S5000x128 : Shape := ⟨2, ![5000, 128]⟩
abbrev S_ : Shape := ⟨0, ![]⟩
abbrev S1000000x1 : Shape := ⟨2, ![1000000, 1]⟩
abbrev S1000000x128 : Shape := ⟨2, ![1000000, 128]⟩
abbrev S50000x1 : Shape := ⟨2, ![50000, 1]⟩
abbrev S100000x1 : Shape := ⟨2, ![100000, 1]⟩
abbrev S5000x1 : Shape := ⟨2, ![5000, 1]⟩
abbrev S150000x128 : Shape := ⟨2, ![150000, 128]⟩

abbrev nBuf : Space → Nat
  | .hbm => 53
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S1000000, .i32⟩
  | .hbm, ⟨7, _⟩ => ⟨S1000000, .i32⟩
  | .hbm, ⟨8, _⟩ => ⟨S1000000, .i32⟩
  | .hbm, ⟨9, _⟩ => ⟨S1000000, .i32⟩
  | .hbm, ⟨10, _⟩ => ⟨S100000x128, .f32⟩
  | .hbm, ⟨11, _⟩ => ⟨S100000x128, .f32⟩
  | .hbm, ⟨12, _⟩ => ⟨S50000x128, .f32⟩
  | .hbm, ⟨13, _⟩ => ⟨S50000x128, .f32⟩
  | .hbm, ⟨14, _⟩ => ⟨S_, .f32⟩
  | .hbm, ⟨15, _⟩ => ⟨S1000000x1, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x128, .f32⟩
  | .hbm, ⟨25, _⟩ => ⟨S_, .f32⟩
  | .hbm, ⟨26, _⟩ => ⟨S50000x128, .f32⟩
  | .hbm, ⟨27, _⟩ => ⟨S1000000x1, .i32⟩
  | .hbm, ⟨28, _⟩ => ⟨S50000x128, .f32⟩
  | .hbm, ⟨29, _⟩ => ⟨S_, .f32⟩
  | .hbm, ⟨30, _⟩ => ⟨S50000x1, .f32⟩
  | .hbm, ⟨31, _⟩ => ⟨S1000000x1, .i32⟩
  | .hbm, ⟨32, _⟩ => ⟨S50000x1, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x128, .f32⟩
  | .hbm, ⟨42, _⟩ => ⟨S_, .f32⟩
  | .hbm, ⟨43, _⟩ => ⟨S100000x128, .f32⟩
  | .hbm, ⟨44, _⟩ => ⟨S1000000x1, .i32⟩
  | .hbm, ⟨45, _⟩ => ⟨S100000x128, .f32⟩
  | .hbm, ⟨46, _⟩ => ⟨S_, .f32⟩
  | .hbm, ⟨47, _⟩ => ⟨S100000x1, .f32⟩
  | .hbm, ⟨48, _⟩ => ⟨S1000000x1, .i32⟩
  | .hbm, ⟨49, _⟩ => ⟨S100000x1, .f32⟩
  | .hbm, ⟨50, _⟩ => ⟨S100000x128, .f32⟩
  | .hbm, ⟨51, _⟩ => ⟨S50000x128, .f32⟩
  | .hbm, ⟨52, _⟩ => ⟨S150000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x1, .f32⟩
  | .local _ .vmem, ⟨29, _⟩ => ⟨S5000x1, .f32⟩
  | .local _ .vmem, ⟨30, _⟩ => ⟨S5000x128, .f32⟩
  | .local _ .vmem, ⟨31, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1_0 : Ref sig .tc := ⟨.hbm, 12, rfl⟩
abbrev main_v1_1 : Ref sig .tc := ⟨.hbm, 13, rfl⟩
abbrev main_cst : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1000000x1 : S_.BroadcastsInDim S1000000x1 (![] : Fin 0 → Fin S1000000x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x128 : S_.BroadcastsInDim S50000x128 (![] : Fin 0 → Fin S50000x128.rank)
  bcast_S_S50000x1 : S_.BroadcastsInDim S50000x1 (![] : Fin 0 → Fin S50000x1.rank)
  bcast_S_S100000x128 : S_.BroadcastsInDim S100000x128 (![] : Fin 0 → Fin S100000x128.rank)
  bcast_S_S100000x1 : S_.BroadcastsInDim S100000x1 (![] : Fin 0 → Fin S100000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  concatenates_S100000x128_S50000x128_S150000x128_d0 : Shape.Concatenates [S100000x128, S50000x128] S150000x128 0
  dot_S5000x128_S128x128_S5000x128_1_0_0_1_n_n_wf : DotDims.WF S5000x128 S128x128 S5000x128 [1] [0] [0] [1] [] []
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000x1_S1000000x1_S1000000x1_1_0_0_1_wf : ScatterDims.WF S50000x1 S1000000x1 S1000000x1 [1] [0] [0] 1
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000x1_S1000000x1_S1000000x1_1_0_0_1_wf : ScatterDims.WF S100000x1 S1000000x1 S1000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0_1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v30) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S128x128 : Shape := ⟨2, ![128, 128]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S50000x1 : Shape := ⟨2, ![50000, 1]⟩
abbrev S100000x1 : Shape := ⟨2, ![100000, 1]⟩
abbrev S150000x128 : Shape := ⟨2, ![150000, 128]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S1000000, .i32⟩
  | .hbm, ⟨7, _⟩ => ⟨S1000000, .i32⟩
  | .hbm, ⟨8, _⟩ => ⟨S1000000, .i32⟩
  | .hbm, ⟨9, _⟩ => ⟨S1000000, .i32⟩
  | .hbm, ⟨10, _⟩ => ⟨S100000x128, .f32⟩
  | .hbm, ⟨11, _⟩ => ⟨S50000x128, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x128, .f32⟩
  | .hbm, ⟨21, _⟩ => ⟨S_, .f32⟩
  | .hbm, ⟨22, _⟩ => ⟨S50000x128, .f32⟩
  | .hbm, ⟨23, _⟩ => ⟨S1000000x1, .i32⟩
  | .hbm, ⟨24, _⟩ => ⟨S50000x128, .f32⟩
  | .hbm, ⟨25, _⟩ => ⟨S_, .f32⟩
  | .hbm, ⟨26, _⟩ => ⟨S1000000x1, .f32⟩
  | .hbm, ⟨27, _⟩ => ⟨S_, .f32⟩
  | .hbm, ⟨28, _⟩ => ⟨S50000x1, .f32⟩
  | .hbm, ⟨29, _⟩ => ⟨S1000000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S100000x128, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000x128, .f32⟩
  | .hbm, ⟨48, _⟩ => ⟨S_, .f32⟩
  | .hbm, ⟨49, _⟩ => ⟨S100000x128, .f32⟩
  | .hbm, ⟨50, _⟩ => ⟨S1000000x1, .i32⟩
  | .hbm, ⟨51, _⟩ => ⟨S100000x128, .f32⟩
  | .hbm, ⟨52, _⟩ => ⟨S_, .f32⟩
  | .hbm, ⟨53, _⟩ => ⟨S1000000x1, .f32⟩
  | .hbm, ⟨54, _⟩ => ⟨S_, .f32⟩
  | .hbm, ⟨55, _⟩ => ⟨S100000x1, .f32⟩
  | .hbm, ⟨56, _⟩ => ⟨S1000000x1, .i32⟩
  | .hbm, ⟨57, _⟩ => ⟨S100000x1, .f32⟩
  | .hbm, ⟨58, _⟩ => ⟨S_, .f32⟩
  | .hbm, ⟨59, _⟩ => ⟨S100000x1, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S150000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call0_cst : Ref sig .tc := ⟨.hbm, 64, rfl⟩
abbrev main_call0_v0 : Ref sig .tc := ⟨.hbm, 65, rfl⟩
abbrev main_v42 : Ref sig .tc := ⟨.hbm, 66, rfl⟩
abbrev main_call1_cst : Ref sig .tc := ⟨.hbm, 67, rfl⟩
abbrev main_call1_v0 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x128 : S_.BroadcastsInDim S50000x128 (![] : Fin 0 → Fin S50000x128.rank)
  bcast_S_S1000000x1 : S_.BroadcastsInDim S1000000x1 (![] : Fin 0 → Fin S1000000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  concatenates_S100000x128_S50000x128_S150000x128_d0 : Shape.Concatenates [S100000x128, S50000x128] S150000x128 0
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000x1_S1000000x1_S1000000x1_1_0_0_1_wf : ScatterDims.WF S50000x1 S1000000x1 S1000000x1 [1] [0] [0] 1
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000x1_S1000000x1_S1000000x1_1_0_0_1_wf : ScatterDims.WF S100000x1 S1000000x1 S1000000x1 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf

class Facts : Prop extends Facts₀ where

variable [Facts]
-- ==== Proof.Spec.lean ====
/-
  The two functions the certificate is about, stated once, over arrays of any number of rows.

  * proj x w: the rows of x multiplied by the 128 x 128 matrix w, entry (r, c) the sum over k of
    x[r,k] * w[k,c] on the extended reals (a sum of extended reals in any order or grouping is the same
    sum, so neither a tiling of the rows nor a rounding of the operands' format shows in it).
  * finalize tgt sum cnt: the mean-aggregation step of the layer followed by the rectifier,
    entry (r, c) the maximum of tgt[r,c] + sum[r,c] / max(cnt[r,0], 1) and 0, the quotient the
    extended reals' total division.
-/
import Idealize.ShloMosaic.PureOps.Ideal.Laws
import Idealize.ShloMosaic.Lib.ValueIdx

noncomputable section

namespace Cert.Spec

open Idealize.ShloMosaic Idealize.ShloMosaic.ValueIdx

/-- The rows of `x` times the matrix `w`: entry (r, c) is the sum over k of x[r,k] * w[k,c]. -/
def proj {n : Nat} (x : FVec Ideal ⟨2, ![n, 128]⟩ .f32) (w : FVec Ideal ⟨2, ![128, 128]⟩ .f32) :
    FVec Ideal ⟨2, ![n, 128]⟩ .f32 :=
  fun i => ∑ k : Fin 128, x (ix2 (i 0) k) * w (ix2 k (i 1))

/-- Entry (r, c) of the projection. -/
theorem proj_apply {n : Nat} (x : FVec Ideal ⟨2, ![n, 128]⟩ .f32) (w : FVec Ideal ⟨2, ![128, 128]⟩ .f32)
    (r : Fin n) (c : Fin 128) : proj x w (ix2 r c) = ∑ k : Fin 128, x (ix2 r k) * w (ix2 k c) := rfl

/-- The target's own projection plus the mean of the incoming messages (their sum over the number of them,
    a target with no incoming message dividing by one), under the rectifier. -/
def finalize {n : Nat} (tgt sum : FVec Ideal ⟨2, ![n, 128]⟩ .f32) (cnt : FVec Ideal ⟨2, ![n, 1]⟩ .f32) :
    FVec Ideal ⟨2, ![n, 128]⟩ .f32 :=
  fun i => max (tgt i + Ideal.div (sum i) (max (cnt (ix2 (i 0) (0 : Fin 1))) (Ideal.ofBits .f32 0x3F800000#32)))
    (Ideal.ofBits .f32 0x00000000#32)

/-- Entry (r, c) of the finalized array. -/
theorem finalize_apply {n : Nat} (tgt sum : FVec Ideal ⟨2, ![n, 128]⟩ .f32) (cnt : FVec Ideal ⟨2, ![n, 1]⟩ .f32)
    (r : Fin n) (c : Fin 128) :
    finalize tgt sum cnt (ix2 r c)
      = max (tgt (ix2 r c) + Ideal.div (sum (ix2 r c)) (max (cnt (ix2 r (0 : Fin 1))) (Ideal.ofBits .f32 0x3F800000#32)))
          (Ideal.ofBits .f32 0x00000000#32) := rfl

end Cert.Spec

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payloads.lean ====
/-
  What each kernel body computes from the blocks it loads, entry by entry, on the extended reals.

  The two projection bodies load a 5000 x 128 block of rows and two 128 x 128 matrices, round all three to
  bf16 (no change on the extended reals) and store, for each matrix, the block's rows times the matrix,
  accumulated from zero: entry (r, c) is the sum over k of x[r,k] * w[k,c].
  The two finalize bodies load a block of the target projection, of the message sums and of the message
  counts (one column) and store max(tgt + sum / max(cnt, 1), 0), the count's column repeated across the
  128 columns.
-/
import proofs.«145316_j59854664237663_2_alg».proof.Proof.Gen.KernelIdeal.Skeleton
import proofs.«145316_j59854664237663_2_alg».proof.Proof.Spec
import proofs.«145316_j59854664237663_2_alg».proof.Proof.LibSplitContraction
import proofs.«145316_j59854664237663_2_alg».proof.Proof.LibColumnBroadcast
import Idealize.ShloMosaic.Lib.Pipeline.Value

noncomputable section

namespace Cert.KernelIdeal.Block

open Cert.KernelIdeal Cert.KernelIdeal.Gen Idealize.ShloMosaic Idealize.ShloMosaic.ValueIdx

/-! ## The block product's index maps -/

theorem lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## A block of rows times a matrix -/

/-- The block product into the zero accumulator, the operands first rounded to bf16: entry (r, c) is the sum
    over k of x[r,k] * w[k,c]. -/
theorem product_apply (x : Vec Ideal S5000x128 .f32) (w : Vec Ideal S128x128 .f32) (r : Fin 5000) (c : Fin 128) :
    matmul (F := Ideal) dot_S5000x128_S128x128_S5000x128_1_0_0_1_n_n none
        (truncf .bf16 x bitsLt_bf16_f32 : FVec Ideal S5000x128 .bf16) (truncf .bf16 w bitsLt_bf16_f32 : FVec Ideal S128x128 .bf16)
        (constant S5000x128 .f32 0x00000000#32) (ix2 r c)
      = ∑ k : Fin 128, x (ix2 r k) * w (ix2 k c) :=
  Cert.Lib.SplitContraction.matmul_zero_at (n := 5000) (K := 128) (d := 128)
    dot_S5000x128_S128x128_S5000x128_1_0_0_1_n_n rfl rfl lhs0 lhs1 rhs0 rhs1 none _ _ r c

theorem k0_pay2_apply (x : Vec Ideal S5000x128 .f32) (w : Vec Ideal S128x128 .f32) (r : Fin 5000) (c : Fin 128) :
    k0_pay2 (F := Ideal) x w (ix2 r c) = ∑ k : Fin 128, x (ix2 r k) * w (ix2 k c) := product_apply x w r c
theorem k0_pay3_apply (x : Vec Ideal S5000x128 .f32) (w : Vec Ideal S128x128 .f32) (r : Fin 5000) (c : Fin 128) :
    k0_pay3 (F := Ideal) x w (ix2 r c) = ∑ k : Fin 128, x (ix2 r k) * w (ix2 k c) := product_apply x w r c
theorem k1_pay2_apply (x : Vec Ideal S5000x128 .f32) (w : Vec Ideal S128x128 .f32) (r : Fin 5000) (c : Fin 128) :
    k1_pay2 (F := Ideal) x w (ix2 r c) = ∑ k : Fin 128, x (ix2 r k) * w (ix2 k c) := product_apply x w r c
theorem k1_pay3_apply (x : Vec Ideal S5000x128 .f32) (w : Vec Ideal S128x128 .f32) (r : Fin 5000) (c : Fin 128) :
    k1_pay3 (F := Ideal) x w (ix2 r c) = ∑ k : Fin 128, x (ix2 r k) * w (ix2 k c) := product_apply x w r c

/-! ## The finalize step on a block -/

/-- Entry (r, c) of the finalize body's stored block: max(tgt + sum / max(cnt, 1), 0), the count read in its
    one column. -/
theorem finalize_block_apply (cnt : Vec Ideal S5000x1 .f32) (sum tgt : Vec Ideal S5000x128 .f32) (r : Fin 5000) (c : Fin 128) :
    maximumf (F := Ideal) (addf (shapeCast S5000x128 tgt shapeCasts_S5000x128_S5000x128 : FVec Ideal S5000x128 .f32)
        (divf (shapeCast S5000x128 sum shapeCasts_S5000x128_S5000x128 : FVec Ideal S5000x128 .f32)
          (broadcastTo S5000x128 (maximumf (shapeCast S5000x1 cnt shapeCasts_S5000x1_S5000x1 : FVec Ideal S5000x1 .f32)
            (broadcast S5000x1 (Scalar.ofBits (F := Ideal) .f32 0x3F800000#32))) broadcasts_S5000x1_S5000x128)))
        (broadcast S5000x128 (Scalar.ofBits (F := Ideal) .f32 0x00000000#32)) (ix2 r c)
      = max (tgt (ix2 r c) + Ideal.div (sum (ix2 r c)) (max (cnt (ix2 r (0 : Fin 1))) (Ideal.ofBits .f32 0x3F800000#32)))
          (Ideal.ofBits .f32 0x00000000#32) := by
  rw [shapeCast_self, shapeCast_self, shapeCast_self]
  rw [maximumf_apply, addf_apply, divf_apply, broadcastTo_a1_ab_apply, maximumf_apply]
  rfl

theorem k2_pay1_apply (cnt : Vec Ideal S5000x1 .f32) (sum tgt : Vec Ideal S5000x128 .f32) (r : Fin 5000) (c : Fin 128) :
    k2_pay1 (F := Ideal) cnt sum tgt (ix2 r c)
      = max (tgt (ix2 r c) + Ideal.div (sum (ix2 r c)) (max (cnt (ix2 r (0 : Fin 1))) (Ideal.ofBits .f32 0x3F800000#32)))
          (Ideal.ofBits .f32 0x00000000#32) := finalize_block_apply cnt sum tgt r c
theorem k3_pay1_apply (cnt : Vec Ideal S5000x1 .f32) (sum tgt : Vec Ideal S5000x128 .f32) (r : Fin 5000) (c : Fin 128) :
    k3_pay1 (F := Ideal) cnt sum tgt (ix2 r c)
      = max (tgt (ix2 r c) + Ideal.div (sum (ix2 r c)) (max (cnt (ix2 r (0 : Fin 1))) (Ideal.ofBits .f32 0x3F800000#32)))
          (Ideal.ofBits .f32 0x00000000#32) := finalize_block_apply cnt sum tgt r c

end Cert.KernelIdeal.Block

end
-- ==== Proof.Region0.lean ====
/-
  The first projection call, as arrays: whatever the buffers hold when it is entered, its first output ends
  holding the rows of its first operand times its second operand (a 128 x 128 matrix), and its second output the
  same rows times its third operand.

  The call walks the 100000 rows in 20 blocks of 5000; the point t loads rows 5000 t .. 5000 t + 4999 and both
  matrices whole, and writes back the two products of that block. A row of a product depends only on the same
  row of the left operand, so block t of "rows times matrix" is "block t of the rows, times the matrix"; the 20
  blocks cover every row, hence the whole output array is the product.
-/
import proofs.«145316_j59854664237663_2_alg».proof.Proof.Gen.KernelIdeal.Frame
import proofs.«145316_j59854664237663_2_alg».proof.Proof.Payloads
import Idealize.ShloMosaic.Lib.Pipeline.Value

noncomputable section

namespace Cert.KernelIdeal.Region0

open Cert.KernelIdeal Cert.KernelIdeal.Gen Cert.KernelIdeal.Block Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the row operand and both outputs at block row t, the two
    matrices at the origin. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 20 := lt_of_lt_of_eq t.isLt N_0

/-- A block of 5000 rows of X (starting at row 5000 T) times the matrix W is the same block of rows of the
    whole product. -/
theorem rows_block (X : FVec Ideal ⟨2, ![100000, 128]⟩ .f32) (W : FVec Ideal ⟨2, ![128, 128]⟩ .f32)
    (x : Vec Ideal S5000x128 .f32) (w : Vec Ideal S128x128 .f32) (T : Nat) (hT : T < 20)
    (hx : ∀ (r : Fin 5000) (k : Fin 128), x (ix2 r k) = X (ix2 ⟨T * 5000 + r.val, by have := r.isLt; omega⟩ k))
    (hw : ∀ (k c : Fin 128), w (ix2 k c) = W (ix2 k c)) (r : Fin 5000) (c : Fin 128) :
    (∑ k : Fin 128, x (ix2 r k) * w (ix2 k c))
      = Cert.Spec.proj (n := 100000) X W (ix2 ⟨T * 5000 + r.val, by have := r.isLt; omega⟩ c) := by
  rw [Cert.Spec.proj_apply]
  exact Finset.sum_congr rfl fun k _ => by rw [hx r k, hw k c]

/-- The row operand's block at point t, read at (r, k): row 5000 t + r of the array the region finds. -/
theorem rows_read (c : Dev nD) (t : Fin cfg0.N) (r : Fin 5000) (k : Fin 128) :
    iblk0 V c 0 t (ix2 r k) = V c main_arg0 (ix2 ⟨t.val * 5000 + r.val, by have := r.isLt; have := point_lt t; omega⟩ k) := by
  obtain ⟨e0, e1, -⟩ := block_index t
  show V c main_arg0 (((cfg0.win 0).blk t).view.emb (ix2 r k)) = _
  have h : ((cfg0.win 0).blk t).view.emb (ix2 r k) = ix2 ⟨t.val * 5000 + r.val, by have := r.isLt; have := point_lt t; omega⟩ k := by
    funext a; apply Fin.ext
    match a with
    | ⟨0, _⟩ => show win0_0.index t (0 : Fin 2) * 5000 + 1 * r.val = t.val * 5000 + r.val; omega
    | ⟨1, _⟩ => show win0_0.index t (1 : Fin 2) * 128 + 1 * k.val = k.val; omega
  rw [h]

/-- The first matrix's block at any point is the matrix. -/
theorem first_matrix_read (c : Dev nD) (t : Fin cfg0.N) (k j : Fin 128) :
    iblk0 V c 1 t (ix2 k j) = V c main_arg2 (ix2 k j) := by
  obtain ⟨-, -, e2, e3, -⟩ := block_index t
  show V c main_arg2 (((cfg0.win 1).blk t).view.emb (ix2 k j)) = _
  have h : ((cfg0.win 1).blk t).view.emb (ix2 k j) = ix2 k j := by
    funext a; apply Fin.ext
    match a with
    | ⟨0, _⟩ => show win0_1.index t (0 : Fin 2) * 128 + 1 * k.val = k.val; omega
    | ⟨1, _⟩ => show win0_1.index t (1 : Fin 2) * 128 + 1 * j.val = j.val; omega
  rw [h]

/-- The second matrix's block at any point is the matrix. -/
theorem second_matrix_read (c : Dev nD) (t : Fin cfg0.N) (k j : Fin 128) :
    iblk0 V c 2 t (ix2 k j) = V c main_arg5 (ix2 k j) := by
  obtain ⟨-, -, -, -, e4, e5, -⟩ := block_index t
  show V c main_arg5 (((cfg0.win 2).blk t).view.emb (ix2 k j)) = _
  have h : ((cfg0.win 2).blk t).view.emb (ix2 k j) = ix2 k j := by
    funext a; apply Fin.ext
    match a with
    | ⟨0, _⟩ => show win0_2.index t (0 : Fin 2) * 128 + 1 * k.val = k.val; omega
    | ⟨1, _⟩ => show win0_2.index t (1 : Fin 2) * 128 + 1 * j.val = j.val; omega
  rw [h]

/-! ## The first output -/

/-- What point t writes back to the first output is block t of the product with the first matrix. -/
theorem first_flushed (c : Dev nD) (t : Fin cfg0.N) :
    (dat0 V c).flushed 3 t
      = ((cfg0.win 3).blk t).view.read (Elt Ideal) (Cert.Spec.proj (n := 100000) (V c main_arg0) (V c main_arg2)) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x128) origin]
  obtain ⟨-, -, -, -, -, -, e6, e7, -⟩ := block_index t
  funext j
  have hj0 : (j 0).val < 5000 := (j 0).isLt
  have hj1 : (j 1).val < 128 := (j 1).isLt
  have ht := point_lt t
  have hemb : ((cfg0.win 3).blk t).view.emb j = ix2 ⟨t.val * 5000 + (j 0).val, by omega⟩ ⟨(j 1).val, hj1⟩ := by
    funext a; apply Fin.ext
    match a with
    | ⟨0, _⟩ => show win0_3.index t (0 : Fin 2) * 5000 + 1 * (j 0).val = t.val * 5000 + (j 0).val; omega
    | ⟨1, _⟩ => show win0_3.index t (1 : Fin 2) * 128 + 1 * (j 1).val = (j 1).val; omega
  have hj : j = ix2 ⟨(j 0).val, hj0⟩ ⟨(j 1).val, hj1⟩ := funext fun a => by
    match a with
    | ⟨0, _⟩ => rfl
    | ⟨1, _⟩ => rfl
  show k0_pay2 (iblk0 V c 0 t) (iblk0 V c 1 t) j = Cert.Spec.proj (n := 100000) (V c main_arg0) (V c main_arg2) (((cfg0.win 3).blk t).view.emb j)
  rw [hemb]
  refine (congrArg (k0_pay2 (F := Ideal) (iblk0 V c 0 t) (iblk0 V c 1 t)) hj).trans ?_
  refine (k0_pay2_apply (iblk0 V c 0 t) (iblk0 V c 1 t) ⟨(j 0).val, hj0⟩ ⟨(j 1).val, hj1⟩).trans ?_
  exact rows_block (V c main_arg0) (V c main_arg2) (iblk0 V c 0 t) (iblk0 V c 1 t) t.val ht
    (fun r k => rows_read V c t r k) (fun k j => first_matrix_read V c t k j) ⟨(j 0).val, hj0⟩ ⟨(j 1).val, hj1⟩

/-- An index of the first output's array is in point t's block iff each coordinate is in the block's range. -/
theorem first_mem (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0_0).slice (win0_3.rect t)).set ↔ _
  rw [View.set_slice_whole, Rect.mem_set_unit]
  exact Iff.rfl

/-- Every row of the first output is in the block of the point that row's number divided by 5000 names. -/
theorem first_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 5000 < grid0.N := by rw [N_0]; omega
  refine ⟨⟨(i 0).val / 5000, hN⟩, flush0_3 _, ?_⟩
  obtain ⟨-, -, -, -, -, -, e6, e7, -⟩ := block_index ⟨(i 0).val / 5000, hN⟩
  rw [first_mem]
  intro a
  match a with
  | ⟨0, _⟩ => show win0_3.index ⟨(i 0).val / 5000, hN⟩ (0 : Fin 2) * 5000 ≤ (i 0).val ∧ (i 0).val < win0_3.index ⟨(i 0).val / 5000, hN⟩ (0 : Fin 2) * 5000 + 5000; rw [e6]; show (i 0).val / 5000 * 5000 ≤ (i 0).val ∧ (i 0).val < (i 0).val / 5000 * 5000 + 5000; omega
  | ⟨1, _⟩ => show win0_3.index ⟨(i 0).val / 5000, hN⟩ (1 : Fin 2) * 128 ≤ (i 1).val ∧ (i 1).val < win0_3.index ⟨(i 0).val / 5000, hN⟩ (1 : Fin 2) * 128 + 128; omega

/-- The first output after the call: the rows the region finds in its first operand, times its second operand. -/
theorem first_output (c : Dev nD) :
    (dat0 V c).arrAt 3 cfg0.N = Cert.Spec.proj (n := 100000) (V c main_arg0) (V c main_arg2) :=
  (dat0 V c).arrAt_eq_of_cover 3 (Cert.Spec.proj (n := 100000) (V c main_arg0) (V c main_arg2))
    (fun t _ => first_flushed V c t) first_cover

/-! ## The second output -/

/-- What point t writes back to the second output is block t of the product with the second matrix. -/
theorem second_flushed (c : Dev nD) (t : Fin cfg0.N) :
    (dat0 V c).flushed 4 t
      = ((cfg0.win 4).blk t).view.read (Elt Ideal) (Cert.Spec.proj (n := 100000) (V c main_arg0) (V c main_arg5)) := by
  show (cfg0.win 4).cut (grid0.coords t) ((dat0 V c).after 4 t) = _
  rw [after0_4]
  unfold out0_4
  rw [View.canon_unit_zero origin]
  simp only [View.ld_unit_zero (S := S5000x128) origin, View.ld_unit_zero (S := S128x128) origin]
  obtain ⟨-, -, -, -, -, -, -, -, e8, e9⟩ := block_index t
  funext j
  have hj0 : (j 0).val < 5000 := (j 0).isLt
  have hj1 : (j 1).val < 128 := (j 1).isLt
  have ht := point_lt t
  have hemb : ((cfg0.win 4).blk t).view.emb j = ix2 ⟨t.val * 5000 + (j 0).val, by omega⟩ ⟨(j 1).val, hj1⟩ := by
    funext a; apply Fin.ext
    match a with
    | ⟨0, _⟩ => show win0_4.index t (0 : Fin 2) * 5000 + 1 * (j 0).val = t.val * 5000 + (j 0).val; omega
    | ⟨1, _⟩ => show win0_4.index t (1 : Fin 2) * 128 + 1 * (j 1).val = (j 1).val; omega
  have hj : j = ix2 ⟨(j 0).val, hj0⟩ ⟨(j 1).val, hj1⟩ := funext fun a => by
    match a with
    | ⟨0, _⟩ => rfl
    | ⟨1, _⟩ => rfl
  show k0_pay3 (iblk0 V c 0 t) (iblk0 V c 2 t) j = Cert.Spec.proj (n := 100000) (V c main_arg0) (V c main_arg5) (((cfg0.win 4).blk t).view.emb j)
  rw [hemb]
  refine (congrArg (k0_pay3 (F := Ideal) (iblk0 V c 0 t) (iblk0 V c 2 t)) hj).trans ?_
  refine (k0_pay3_apply (iblk0 V c 0 t) (iblk0 V c 2 t) ⟨(j 0).val, hj0⟩ ⟨(j 1).val, hj1⟩).trans ?_
  exact rows_block (V c main_arg0) (V c main_arg5) (iblk0 V c 0 t) (iblk0 V c 2 t) t.val ht
    (fun r k => rows_read V c t r k) (fun k j => second_matrix_read V c t k j) ⟨(j 0).val, hj0⟩ ⟨(j 1).val, hj1⟩

theorem second_mem (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v0_1).slice (win0_4.rect t)).set ↔ _
  rw [View.set_slice_whole, Rect.mem_set_unit]
  exact Iff.rfl

theorem second_cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : (i 0).val / 5000 < grid0.N := by rw [N_0]; omega
  refine ⟨⟨(i 0).val / 5000, hN⟩, flush0_4 _, ?_⟩
  obtain ⟨-, -, -, -, -, -, -, -, e8, e9⟩ := block_index ⟨(i 0).val / 5000, hN⟩
  rw [second_mem]
  intro a
  match a with
  | ⟨0, _⟩ => show win0_4.index ⟨(i 0).val / 5000, hN⟩ (0 : Fin 2) * 5000 ≤ (i 0).val ∧ (i 0).val < win0_4.index ⟨(i 0).val / 5000, hN⟩ (0 : Fin 2) * 5000 + 5000; rw [e8]; show (i 0).val / 5000 * 5000 ≤ (i 0).val ∧ (i 0).val < (i 0).val / 5000 * 5000 + 5000; omega
  | ⟨1, _⟩ => show win0_4.index ⟨(i 0).val / 5000, hN⟩ (1 : Fin 2) * 128 ≤ (i 1).val ∧ (i 1).val < win0_4.index ⟨(i 0).val / 5000, hN⟩ (1 : Fin 2) * 128 + 128; omega

/-- The second output after the call: the same rows times the region's third operand. -/
theorem second_output (c : Dev nD) :
    (dat0 V c).arrAt 4 cfg0.N = Cert.Spec.proj (n := 100000) (V c main_arg0) (V c main_arg5) :=
  (dat0 V c).arrAt_eq_of_cover 4 (Cert.Spec.proj (n := 100000) (V c main_arg0) (V c main_arg5))
    (fun t _ => second_flushed V c t) second_cover

end Cert.KernelIdeal.Region0

end
-- ==== Proof.Region1.lean ====
/-
  The second projection call, as arrays: whatever the buffers hold when it is entered, its first output ends
  holding the rows of its first operand times its second operand (a 128 x 128 matrix), and its second output the
  same rows times its third operand.

  The call walks the 50000 rows in 10 blocks of 5000; the point t loads rows 5000 t .. 5000 t + 4999 and both
  matrices whole, and writes back the two products of that block. A row of a product depends only on the same
  row of the left operand, so block t of "rows times matrix" is "block t of the rows, times the matrix"; the 10
  blocks cover every row, hence the whole output array is the product.
-/
import proofs.«145316_j59854664237663_2_alg».proof.Proof.Gen.KernelIdeal.Frame
import proofs.«145316_j59854664237663_2_alg».proof.Proof.Payloads
import Idealize.ShloMosaic.Lib.Pipeline.Value

noncomputable section

namespace Cert.KernelIdeal.Region1

open Cert.KernelIdeal Cert.KernelIdeal.Gen Cert.KernelIdeal.Block Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the row operand and both outputs at block row t, the two
    matrices at the origin. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem point_lt (t : Fin cfg1.N) : t.val < 10 := lt_of_lt_of_eq t.isLt N_1

/-- A block of 5000 rows of X (starting at row 5000 T) times the matrix W is the same block of rows of the
    whole product. -/
theorem rows_block (X : FVec Ideal ⟨2, ![50000, 128]⟩ .f32) (W : FVec Ideal ⟨2, ![128, 128]⟩ .f32)
    (x : Vec Ideal S5000x128 .f32) (w : Vec Ideal S128x128 .f32) (T : Nat) (hT : T < 10)
    (hx : ∀ (r : Fin 5000) (k : Fin 128), x (ix2 r k) = X (ix2 ⟨T * 5000 + r.val, by have := r.isLt; omega⟩ k))
    (hw : ∀ (k c : Fin 128), w (ix2 k c) = W (ix2 k c)) (r : Fin 5000) (c : Fin 128) :
    (∑ k : Fin 128, x (ix2 r k) * w (ix2 k c))
      = Cert.Spec.proj (n := 50000) X W (ix2 ⟨T * 5000 + r.val, by have := r.isLt; omega⟩ c) := by
  rw [Cert.Spec.proj_apply]
  exact Finset.sum_congr rfl fun k _ => by rw [hx r k, hw k c]

/-- The row operand's block at point t, read at (r, k): row 5000 t + r of the array the region finds. -/
theorem rows_read (c : Dev nD) (t : Fin cfg1.N) (r : Fin 5000) (k : Fin 128) :
    iblk1 V c 0 t (ix2 r k) = V c main_arg1 (ix2 ⟨t.val * 5000 + r.val, by have := r.isLt; have := point_lt t; omega⟩ k) := by
  obtain ⟨e0, e1, -⟩ := block_index t
  show V c main_arg1 (((cfg1.win 0).blk t).view.emb (ix2 r k)) = _
  have h : ((cfg1.win 0).blk t).view.emb (ix2 r k) = ix2 ⟨t.val * 5000 + r.val, by have := r.isLt; have := point_lt t; omega⟩ k := by
    funext a; apply Fin.ext
    match a with
    | ⟨0, _⟩ => show win1_0.index t (0 : Fin 2) * 5000 + 1 * r.val = t.val * 5000 + r.val; omega
    | ⟨1, _⟩ => show win1_0.index t (1 : Fin 2) * 128 + 1 * k.val = k.val; omega
  rw [h]

/-- The first matrix's block at any point is the matrix. -/
theorem first_matrix_read (c : Dev nD) (t : Fin cfg1.N) (k j : Fin 128) :
    iblk1 V c 1 t (ix2 k j) = V c main_arg3 (ix2 k j) := by
  obtain ⟨-, -, e2, e3, -⟩ := block_index t
  show V c main_arg3 (((cfg1.win 1).blk t).view.emb (ix2 k j)) = _
  have h : ((cfg1.win 1).blk t).view.emb (ix2 k j) = ix2 k j := by
    funext a; apply Fin.ext
    match a with
    | ⟨0, _⟩ => show win1_1.index t (0 : Fin 2) * 128 + 1 * k.val = k.val; omega
    | ⟨1, _⟩ => show win1_1.index t (1 : Fin 2) * 128 + 1 * j.val = j.val; omega
  rw [h]

/-- The second matrix's block at any point is the matrix. -/
theorem second_matrix_read (c : Dev nD) (t : Fin cfg1.N) (k j : Fin 128) :
    iblk1 V c 2 t (ix2 k j) = V c main_arg4 (ix2 k j) := by
  obtain ⟨-, -, -, -, e4, e5, -⟩ := block_index t
  show V c main_arg4 (((cfg1.win 2).blk t).view.emb (ix2 k j)) = _
  have h : ((cfg1.win 2).blk t).view.emb (ix2 k j) = ix2 k j := by
    funext a; apply Fin.ext
    match a with
    | ⟨0, _⟩ => show win1_2.index t (0 : Fin 2) * 128 + 1 * k.val = k.val; omega
    | ⟨1, _⟩ => show win1_2.index t (1 : Fin 2) * 128 + 1 * j.val = j.val; omega
  rw [h]

/-! ## The first output -/

/-- What point t writes back to the first output is block t of the product with the first matrix. -/
theorem first_flushed (c : Dev nD) (t : Fin cfg1.N) :
    (dat1 V c).flushed 3 t
      = ((cfg1.win 3).blk t).view.read (Elt Ideal) (Cert.Spec.proj (n := 50000) (V c main_arg1) (V c main_arg3)) := by
  show (cfg1.win 3).cut (grid1.coords t) ((dat1 V c).after 3 t) = _
  rw [after1_3]
  unfold out1_3
  rw [View.canon_unit_zero origin]
  simp only [View.ld_unit_zero (S := S5000x128) origin, View.ld_unit_zero (S := S128x128) origin]
  obtain ⟨-, -, -, -, -, -, e6, e7, -⟩ := block_index t
  funext j
  have hj0 : (j 0).val < 5000 := (j 0).isLt
  have hj1 : (j 1).val < 128 := (j 1).isLt
  have ht := point_lt t
  have hemb : ((cfg1.win 3).blk t).view.emb j = ix2 ⟨t.val * 5000 + (j 0).val, by omega⟩ ⟨(j 1).val, hj1⟩ := by
    funext a; apply Fin.ext
    match a with
    | ⟨0, _⟩ => show win1_3.index t (0 : Fin 2) * 5000 + 1 * (j 0).val = t.val * 5000 + (j 0).val; omega
    | ⟨1, _⟩ => show win1_3.index t (1 : Fin 2) * 128 + 1 * (j 1).val = (j 1).val; omega
  have hj : j = ix2 ⟨(j 0).val, hj0⟩ ⟨(j 1).val, hj1⟩ := funext fun a => by
    match a with
    | ⟨0, _⟩ => rfl
    | ⟨1, _⟩ => rfl
  show k1_pay2 (iblk1 V c 0 t) (iblk1 V c 1 t) j = Cert.Spec.proj (n := 50000) (V c main_arg1) (V c main_arg3) (((cfg1.win 3).blk t).view.emb j)
  rw [hemb]
  refine (congrArg (k1_pay2 (F := Ideal) (iblk1 V c 0 t) (iblk1 V c 1 t)) hj).trans ?_
  refine (k1_pay2_apply (iblk1 V c 0 t) (iblk1 V c 1 t) ⟨(j 0).val, hj0⟩ ⟨(j 1).val, hj1⟩).trans ?_
  exact rows_block (V c main_arg1) (V c main_arg3) (iblk1 V c 0 t) (iblk1 V c 1 t) t.val ht
    (fun r k => rows_read V c t r k) (fun k j => first_matrix_read V c t k j) ⟨(j 0).val, hj0⟩ ⟨(j 1).val, hj1⟩

/-- An index of the first output's array is in point t's block iff each coordinate is in the block's range. -/
theorem first_mem (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v1_0).slice (win1_3.rect t)).set ↔ _
  rw [View.set_slice_whole, Rect.mem_set_unit]
  exact Iff.rfl

/-- Every row of the first output is in the block of the point that row's number divided by 5000 names. -/
theorem first_cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : (i 0).val / 5000 < grid1.N := by rw [N_1]; omega
  refine ⟨⟨(i 0).val / 5000, hN⟩, flush1_3 _, ?_⟩
  obtain ⟨-, -, -, -, -, -, e6, e7, -⟩ := block_index ⟨(i 0).val / 5000, hN⟩
  rw [first_mem]
  intro a
  match a with
  | ⟨0, _⟩ => show win1_3.index ⟨(i 0).val / 5000, hN⟩ (0 : Fin 2) * 5000 ≤ (i 0).val ∧ (i 0).val < win1_3.index ⟨(i 0).val / 5000, hN⟩ (0 : Fin 2) * 5000 + 5000; rw [e6]; show (i 0).val / 5000 * 5000 ≤ (i 0).val ∧ (i 0).val < (i 0).val / 5000 * 5000 + 5000; omega
  | ⟨1, _⟩ => show win1_3.index ⟨(i 0).val / 5000, hN⟩ (1 : Fin 2) * 128 ≤ (i 1).val ∧ (i 1).val < win1_3.index ⟨(i 0).val / 5000, hN⟩ (1 : Fin 2) * 128 + 128; omega

/-- The first output after the call: the rows the region finds in its first operand, times its second operand. -/
theorem first_output (c : Dev nD) :
    (dat1 V c).arrAt 3 cfg1.N = Cert.Spec.proj (n := 50000) (V c main_arg1) (V c main_arg3) :=
  (dat1 V c).arrAt_eq_of_cover 3 (Cert.Spec.proj (n := 50000) (V c main_arg1) (V c main_arg3))
    (fun t _ => first_flushed V c t) first_cover

/-! ## The second output -/

/-- What point t writes back to the second output is block t of the product with the second matrix. -/
theorem second_flushed (c : Dev nD) (t : Fin cfg1.N) :
    (dat1 V c).flushed 4 t
      = ((cfg1.win 4).blk t).view.read (Elt Ideal) (Cert.Spec.proj (n := 50000) (V c main_arg1) (V c main_arg4)) := by
  show (cfg1.win 4).cut (grid1.coords t) ((dat1 V c).after 4 t) = _
  rw [after1_4]
  unfold out1_4
  rw [View.canon_unit_zero origin]
  simp only [View.ld_unit_zero (S := S5000x128) origin, View.ld_unit_zero (S := S128x128) origin]
  obtain ⟨-, -, -, -, -, -, -, -, e8, e9⟩ := block_index t
  funext j
  have hj0 : (j 0).val < 5000 := (j 0).isLt
  have hj1 : (j 1).val < 128 := (j 1).isLt
  have ht := point_lt t
  have hemb : ((cfg1.win 4).blk t).view.emb j = ix2 ⟨t.val * 5000 + (j 0).val, by omega⟩ ⟨(j 1).val, hj1⟩ := by
    funext a; apply Fin.ext
    match a with
    | ⟨0, _⟩ => show win1_4.index t (0 : Fin 2) * 5000 + 1 * (j 0).val = t.val * 5000 + (j 0).val; omega
    | ⟨1, _⟩ => show win1_4.index t (1 : Fin 2) * 128 + 1 * (j 1).val = (j 1).val; omega
  have hj : j = ix2 ⟨(j 0).val, hj0⟩ ⟨(j 1).val, hj1⟩ := funext fun a => by
    match a with
    | ⟨0, _⟩ => rfl
    | ⟨1, _⟩ => rfl
  show k1_pay3 (iblk1 V c 0 t) (iblk1 V c 2 t) j = Cert.Spec.proj (n := 50000) (V c main_arg1) (V c main_arg4) (((cfg1.win 4).blk t).view.emb j)
  rw [hemb]
  refine (congrArg (k1_pay3 (F := Ideal) (iblk1 V c 0 t) (iblk1 V c 2 t)) hj).trans ?_
  refine (k1_pay3_apply (iblk1 V c 0 t) (iblk1 V c 2 t) ⟨(j 0).val, hj0⟩ ⟨(j 1).val, hj1⟩).trans ?_
  exact rows_block (V c main_arg1) (V c main_arg4) (iblk1 V c 0 t) (iblk1 V c 2 t) t.val ht
    (fun r k => rows_read V c t r k) (fun k j => second_matrix_read V c t k j) ⟨(j 0).val, hj0⟩ ⟨(j 1).val, hj1⟩

theorem second_mem (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v1_1).slice (win1_4.rect t)).set ↔ _
  rw [View.set_slice_whole, Rect.mem_set_unit]
  exact Iff.rfl

theorem second_cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : (i 0).val / 5000 < grid1.N := by rw [N_1]; omega
  refine ⟨⟨(i 0).val / 5000, hN⟩, flush1_4 _, ?_⟩
  obtain ⟨-, -, -, -, -, -, -, -, e8, e9⟩ := block_index ⟨(i 0).val / 5000, hN⟩
  rw [second_mem]
  intro a
  match a with
  | ⟨0, _⟩ => show win1_4.index ⟨(i 0).val / 5000, hN⟩ (0 : Fin 2) * 5000 ≤ (i 0).val ∧ (i 0).val < win1_4.index ⟨(i 0).val / 5000, hN⟩ (0 : Fin 2) * 5000 + 5000; rw [e8]; show (i 0).val / 5000 * 5000 ≤ (i 0).val ∧ (i 0).val < (i 0).val / 5000 * 5000 + 5000; omega
  | ⟨1, _⟩ => show win1_4.index ⟨(i 0).val / 5000, hN⟩ (1 : Fin 2) * 128 ≤ (i 1).val ∧ (i 1).val < win1_4.index ⟨(i 0).val / 5000, hN⟩ (1 : Fin 2) * 128 + 128; omega

/-- The second output after the call: the same rows times the region's third operand. -/
theorem second_output (c : Dev nD) :
    (dat1 V c).arrAt 4 cfg1.N = Cert.Spec.proj (n := 50000) (V c main_arg1) (V c main_arg4) :=
  (dat1 V c).arrAt_eq_of_cover 4 (Cert.Spec.proj (n := 50000) (V c main_arg1) (V c main_arg4))
    (fun t _ => second_flushed V c t) second_cover

end Cert.KernelIdeal.Region1

end
-- ==== Proof.Region2.lean ====
/-
  The finalize call on the user rows, as arrays: whatever the buffers hold when it is entered, its output ends
  holding, entry by entry, max(tgt + sum / max(cnt, 1), 0) of its three operands (the target projection, the
  message sums, and the one-column message counts).

  The call walks the 100000 rows in 20 blocks of 5000; the point t loads rows 5000 t .. 5000 t + 4999 of each
  operand and writes back the finalized block. Entry (r, c) of the result depends only on row r of the operands,
  so block t of the finalized array is the finalized block t; the 20 blocks cover every row.
-/
import proofs.«145316_j59854664237663_2_alg».proof.Proof.Gen.KernelIdeal.Frame
import proofs.«145316_j59854664237663_2_alg».proof.Proof.Payloads
import Idealize.ShloMosaic.Lib.Pipeline.Value

noncomputable section

namespace Cert.KernelIdeal.Region2

open Cert.KernelIdeal Cert.KernelIdeal.Gen Cert.KernelIdeal.Block Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: all four at block row t. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem point_lt (t : Fin cfg2.N) : t.val < 20 := lt_of_lt_of_eq t.isLt N_2

/-- The finalize step on a block of 5000 rows (starting at row 5000 T) of the three operands is the same block
    of rows of the whole finalized array. -/
theorem rows_block (TGT SUM : FVec Ideal ⟨2, ![100000, 128]⟩ .f32) (CNT : FVec Ideal ⟨2, ![100000, 1]⟩ .f32)
    (tgt sum : Vec Ideal S5000x128 .f32) (cnt : Vec Ideal S5000x1 .f32) (T : Nat) (hT : T < 20)
    (htgt : ∀ (r : Fin 5000) (k : Fin 128), tgt (ix2 r k) = TGT (ix2 ⟨T * 5000 + r.val, by have := r.isLt; omega⟩ k))
    (hsum : ∀ (r : Fin 5000) (k : Fin 128), sum (ix2 r k) = SUM (ix2 ⟨T * 5000 + r.val, by have := r.isLt; omega⟩ k))
    (hcnt : ∀ (r : Fin 5000), cnt (ix2 r (0 : Fin 1)) = CNT (ix2 ⟨T * 5000 + r.val, by have := r.isLt; omega⟩ (0 : Fin 1)))
    (r : Fin 5000) (c : Fin 128) :
    max (tgt (ix2 r c) + Ideal.div (sum (ix2 r c)) (max (cnt (ix2 r (0 : Fin 1))) (Ideal.ofBits .f32 0x3F800000#32)))
        (Ideal.ofBits .f32 0x00000000#32)
      = Cert.Spec.finalize (n := 100000) TGT SUM CNT (ix2 ⟨T * 5000 + r.val, by have := r.isLt; omega⟩ c) := by
  rw [Cert.Spec.finalize_apply, htgt r c, hsum r c, hcnt r]

/-- The target operand's block at point t, read at (r, k): row 5000 t + r of the array the region finds. -/
theorem tgt_read (c : Dev nD) (t : Fin cfg2.N) (r : Fin 5000) (k : Fin 128) :
    iblk2 V c 0 t (ix2 r k) = V c main_v0_1 (ix2 ⟨t.val * 5000 + r.val, by have := r.isLt; have := point_lt t; omega⟩ k) := by
  obtain ⟨e0, e1, -⟩ := block_index t
  show V c main_v0_1 (((cfg2.win 0).blk t).view.emb (ix2 r k)) = _
  have h : ((cfg2.win 0).blk t).view.emb (ix2 r k) = ix2 ⟨t.val * 5000 + r.val, by have := r.isLt; have := point_lt t; omega⟩ k := by
    funext a; apply Fin.ext
    match a with
    | ⟨0, _⟩ => show win2_0.index t (0 : Fin 2) * 5000 + 1 * r.val = t.val * 5000 + r.val; omega
    | ⟨1, _⟩ => show win2_0.index t (1 : Fin 2) * 128 + 1 * k.val = k.val; omega
  rw [h]

/-- The sums operand's block at point t, read at (r, k). -/
theorem sum_read (c : Dev nD) (t : Fin cfg2.N) (r : Fin 5000) (k : Fin 128) :
    iblk2 V c 1 t (ix2 r k) = V c main_v25 (ix2 ⟨t.val * 5000 + r.val, by have := r.isLt; have := point_lt t; omega⟩ k) := by
  obtain ⟨-, -, e2, e3, -⟩ := block_index t
  show V c main_v25 (((cfg2.win 1).blk t).view.emb (ix2 r k)) = _
  have h : ((cfg2.win 1).blk t).view.emb (ix2 r k) = ix2 ⟨t.val * 5000 + r.val, by have := r.isLt; have := point_lt t; omega⟩ k := by
    funext a; apply Fin.ext
    match a with
    | ⟨0, _⟩ => show win2_1.index t (0 : Fin 2) * 5000 + 1 * r.val = t.val * 5000 + r.val; omega
    | ⟨1, _⟩ => show win2_1.index t (1 : Fin 2) * 128 + 1 * k.val = k.val; omega
  rw [h]

/-- The counts operand's block at point t, read at row r of its one column. -/
theorem cnt_read (c : Dev nD) (t : Fin cfg2.N) (r : Fin 5000) :
    iblk2 V c 2 t (ix2 r (0 : Fin 1)) = V c main_v28 (ix2 ⟨t.val * 5000 + r.val, by have := r.isLt; have := point_lt t; omega⟩ (0 : Fin 1)) := by
  obtain ⟨-, -, -, -, e4, e5, -⟩ := block_index t
  show V c main_v28 (((cfg2.win 2).blk t).view.emb (ix2 r (0 : Fin 1))) = _
  have h : ((cfg2.win 2).blk t).view.emb (ix2 r (0 : Fin 1)) = ix2 ⟨t.val * 5000 + r.val, by have := r.isLt; have := point_lt t; omega⟩ (0 : Fin 1) := by
    funext a; apply Fin.ext
    match a with
    | ⟨0, _⟩ => show win2_2.index t (0 : Fin 2) * 5000 + 1 * r.val = t.val * 5000 + r.val; omega
    | ⟨1, _⟩ => show win2_2.index t (1 : Fin 2) * 1 + 1 * 0 = 0; omega
  rw [h]

/-- What point t writes back is block t of the finalized array. -/
theorem flushed (c : Dev nD) (t : Fin cfg2.N) :
    (dat2 V c).flushed 3 t
      = ((cfg2.win 3).blk t).view.read (Elt Ideal) (Cert.Spec.finalize (n := 100000) (V c main_v0_1) (V c main_v25) (V c main_v28)) := by
  show (cfg2.win 3).cut (grid2.coords t) ((dat2 V c).after 3 t) = _
  rw [after2_3]
  unfold out2_3
  rw [View.canon_unit_zero origin]
  simp only [View.ld_unit_zero (S := S5000x128) origin, View.ld_unit_zero (S := S5000x1) origin]
  obtain ⟨-, -, -, -, -, -, e6, e7⟩ := block_index t
  funext j
  have hj0 : (j 0).val < 5000 := (j 0).isLt
  have hj1 : (j 1).val < 128 := (j 1).isLt
  have ht := point_lt t
  have hemb : ((cfg2.win 3).blk t).view.emb j = ix2 ⟨t.val * 5000 + (j 0).val, by omega⟩ ⟨(j 1).val, hj1⟩ := by
    funext a; apply Fin.ext
    match a with
    | ⟨0, _⟩ => show win2_3.index t (0 : Fin 2) * 5000 + 1 * (j 0).val = t.val * 5000 + (j 0).val; omega
    | ⟨1, _⟩ => show win2_3.index t (1 : Fin 2) * 128 + 1 * (j 1).val = (j 1).val; omega
  have hj : j = ix2 ⟨(j 0).val, hj0⟩ ⟨(j 1).val, hj1⟩ := funext fun a => by
    match a with
    | ⟨0, _⟩ => rfl
    | ⟨1, _⟩ => rfl
  show k2_pay1 (iblk2 V c 2 t) (iblk2 V c 1 t) (iblk2 V c 0 t) j
    = Cert.Spec.finalize (n := 100000) (V c main_v0_1) (V c main_v25) (V c main_v28) (((cfg2.win 3).blk t).view.emb j)
  rw [hemb]
  refine (congrArg (k2_pay1 (F := Ideal) (iblk2 V c 2 t) (iblk2 V c 1 t) (iblk2 V c 0 t)) hj).trans ?_
  refine (k2_pay1_apply (iblk2 V c 2 t) (iblk2 V c 1 t) (iblk2 V c 0 t) ⟨(j 0).val, hj0⟩ ⟨(j 1).val, hj1⟩).trans ?_
  exact rows_block (V c main_v0_1) (V c main_v25) (V c main_v28) (iblk2 V c 0 t) (iblk2 V c 1 t) (iblk2 V c 2 t) t.val ht
    (fun r k => tgt_read V c t r k) (fun r k => sum_read V c t r k) (fun r => cnt_read V c t r) ⟨(j 0).val, hj0⟩ ⟨(j 1).val, hj1⟩

/-- An index of the output's array is in point t's block iff each coordinate is in the block's range. -/
theorem mem_block (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v29).slice (win2_3.rect t)).set ↔ _
  rw [View.set_slice_whole, Rect.mem_set_unit]
  exact Iff.rfl

/-- Every row of the output is in the block of the point that row's number divided by 5000 names. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : (i 0).val / 5000 < grid2.N := by rw [N_2]; omega
  refine ⟨⟨(i 0).val / 5000, hN⟩, flush2_3 _, ?_⟩
  obtain ⟨-, -, -, -, -, -, e6, e7⟩ := block_index ⟨(i 0).val / 5000, hN⟩
  rw [mem_block]
  intro a
  match a with
  | ⟨0, _⟩ => show win2_3.index ⟨(i 0).val / 5000, hN⟩ (0 : Fin 2) * 5000 ≤ (i 0).val ∧ (i 0).val < win2_3.index ⟨(i 0).val / 5000, hN⟩ (0 : Fin 2) * 5000 + 5000; rw [e6]; show (i 0).val / 5000 * 5000 ≤ (i 0).val ∧ (i 0).val < (i 0).val / 5000 * 5000 + 5000; omega
  | ⟨1, _⟩ => show win2_3.index ⟨(i 0).val / 5000, hN⟩ (1 : Fin 2) * 128 ≤ (i 1).val ∧ (i 1).val < win2_3.index ⟨(i 0).val / 5000, hN⟩ (1 : Fin 2) * 128 + 128; omega

/-- The output after the call: the finalize step of the three operands as the region finds them. -/
theorem output (c : Dev nD) :
    (dat2 V c).arrAt 3 cfg2.N = Cert.Spec.finalize (n := 100000) (V c main_v0_1) (V c main_v25) (V c main_v28) :=
  (dat2 V c).arrAt_eq_of_cover 3 (Cert.Spec.finalize (n := 100000) (V c main_v0_1) (V c main_v25) (V c main_v28))
    (fun t _ => flushed V c t) cover

end Cert.KernelIdeal.Region2

end
-- ==== Proof.Region3.lean ====
/-
  The finalize call on the POI rows, as arrays: whatever the buffers hold when it is entered, its output ends
  holding, entry by entry, max(tgt + sum / max(cnt, 1), 0) of its three operands (the target projection, the
  message sums, and the one-column message counts).

  The call walks the 50000 rows in 10 blocks of 5000; the point t loads rows 5000 t .. 5000 t + 4999 of each
  operand and writes back the finalized block. Entry (r, c) of the result depends only on row r of the operands,
  so block t of the finalized array is the finalized block t; the 10 blocks cover every row.
-/
import proofs.«145316_j59854664237663_2_alg».proof.Proof.Gen.KernelIdeal.Frame
import proofs.«145316_j59854664237663_2_alg».proof.Proof.Payloads
import Idealize.ShloMosaic.Lib.Pipeline.Value

noncomputable section

namespace Cert.KernelIdeal.Region3

open Cert.KernelIdeal Cert.KernelIdeal.Gen Cert.KernelIdeal.Block Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: all four at block row t. -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

theorem point_lt (t : Fin cfg3.N) : t.val < 10 := lt_of_lt_of_eq t.isLt N_3

/-- The finalize step on a block of 5000 rows (starting at row 5000 T) of the three operands is the same block
    of rows of the whole finalized array. -/
theorem rows_block (TGT SUM : FVec Ideal ⟨2, ![50000, 128]⟩ .f32) (CNT : FVec Ideal ⟨2, ![50000, 1]⟩ .f32)
    (tgt sum : Vec Ideal S5000x128 .f32) (cnt : Vec Ideal S5000x1 .f32) (T : Nat) (hT : T < 10)
    (htgt : ∀ (r : Fin 5000) (k : Fin 128), tgt (ix2 r k) = TGT (ix2 ⟨T * 5000 + r.val, by have := r.isLt; omega⟩ k))
    (hsum : ∀ (r : Fin 5000) (k : Fin 128), sum (ix2 r k) = SUM (ix2 ⟨T * 5000 + r.val, by have := r.isLt; omega⟩ k))
    (hcnt : ∀ (r : Fin 5000), cnt (ix2 r (0 : Fin 1)) = CNT (ix2 ⟨T * 5000 + r.val, by have := r.isLt; omega⟩ (0 : Fin 1)))
    (r : Fin 5000) (c : Fin 128) :
    max (tgt (ix2 r c) + Ideal.div (sum (ix2 r c)) (max (cnt (ix2 r (0 : Fin 1))) (Ideal.ofBits .f32 0x3F800000#32)))
        (Ideal.ofBits .f32 0x00000000#32)
      = Cert.Spec.finalize (n := 50000) TGT SUM CNT (ix2 ⟨T * 5000 + r.val, by have := r.isLt; omega⟩ c) := by
  rw [Cert.Spec.finalize_apply, htgt r c, hsum r c, hcnt r]

/-- The target operand's block at point t, read at (r, k): row 5000 t + r of the array the region finds. -/
theorem tgt_read (c : Dev nD) (t : Fin cfg3.N) (r : Fin 5000) (k : Fin 128) :
    iblk3 V c 0 t (ix2 r k) = V c main_v1_0 (ix2 ⟨t.val * 5000 + r.val, by have := r.isLt; have := point_lt t; omega⟩ k) := by
  obtain ⟨e0, e1, -⟩ := block_index t
  show V c main_v1_0 (((cfg3.win 0).blk t).view.emb (ix2 r k)) = _
  have h : ((cfg3.win 0).blk t).view.emb (ix2 r k) = ix2 ⟨t.val * 5000 + r.val, by have := r.isLt; have := point_lt t; omega⟩ k := by
    funext a; apply Fin.ext
    match a with
    | ⟨0, _⟩ => show win3_0.index t (0 : Fin 2) * 5000 + 1 * r.val = t.val * 5000 + r.val; omega
    | ⟨1, _⟩ => show win3_0.index t (1 : Fin 2) * 128 + 1 * k.val = k.val; omega
  rw [h]

/-- The sums operand's block at point t, read at (r, k). -/
theorem sum_read (c : Dev nD) (t : Fin cfg3.N) (r : Fin 5000) (k : Fin 128) :
    iblk3 V c 1 t (ix2 r k) = V c main_v12 (ix2 ⟨t.val * 5000 + r.val, by have := r.isLt; have := point_lt t; omega⟩ k) := by
  obtain ⟨-, -, e2, e3, -⟩ := block_index t
  show V c main_v12 (((cfg3.win 1).blk t).view.emb (ix2 r k)) = _
  have h : ((cfg3.win 1).blk t).view.emb (ix2 r k) = ix2 ⟨t.val * 5000 + r.val, by have := r.isLt; have := point_lt t; omega⟩ k := by
    funext a; apply Fin.ext
    match a with
    | ⟨0, _⟩ => show win3_1.index t (0 : Fin 2) * 5000 + 1 * r.val = t.val * 5000 + r.val; omega
    | ⟨1, _⟩ => show win3_1.index t (1 : Fin 2) * 128 + 1 * k.val = k.val; omega
  rw [h]

/-- The counts operand's block at point t, read at row r of its one column. -/
theorem cnt_read (c : Dev nD) (t : Fin cfg3.N) (r : Fin 5000) :
    iblk3 V c 2 t (ix2 r (0 : Fin 1)) = V c main_v15 (ix2 ⟨t.val * 5000 + r.val, by have := r.isLt; have := point_lt t; omega⟩ (0 : Fin 1)) := by
  obtain ⟨-, -, -, -, e4, e5, -⟩ := block_index t
  show V c main_v15 (((cfg3.win 2).blk t).view.emb (ix2 r (0 : Fin 1))) = _
  have h : ((cfg3.win 2).blk t).view.emb (ix2 r (0 : Fin 1)) = ix2 ⟨t.val * 5000 + r.val, by have := r.isLt; have := point_lt t; omega⟩ (0 : Fin 1) := by
    funext a; apply Fin.ext
    match a with
    | ⟨0, _⟩ => show win3_2.index t (0 : Fin 2) * 5000 + 1 * r.val = t.val * 5000 + r.val; omega
    | ⟨1, _⟩ => show win3_2.index t (1 : Fin 2) * 1 + 1 * 0 = 0; omega
  rw [h]

/-- What point t writes back is block t of the finalized array. -/
theorem flushed (c : Dev nD) (t : Fin cfg3.N) :
    (dat3 V c).flushed 3 t
      = ((cfg3.win 3).blk t).view.read (Elt Ideal) (Cert.Spec.finalize (n := 50000) (V c main_v1_0) (V c main_v12) (V c main_v15)) := by
  show (cfg3.win 3).cut (grid3.coords t) ((dat3 V c).after 3 t) = _
  rw [after3_3]
  unfold out3_3
  rw [View.canon_unit_zero origin]
  simp only [View.ld_unit_zero (S := S5000x128) origin, View.ld_unit_zero (S := S5000x1) origin]
  obtain ⟨-, -, -, -, -, -, e6, e7⟩ := block_index t
  funext j
  have hj0 : (j 0).val < 5000 := (j 0).isLt
  have hj1 : (j 1).val < 128 := (j 1).isLt
  have ht := point_lt t
  have hemb : ((cfg3.win 3).blk t).view.emb j = ix2 ⟨t.val * 5000 + (j 0).val, by omega⟩ ⟨(j 1).val, hj1⟩ := by
    funext a; apply Fin.ext
    match a with
    | ⟨0, _⟩ => show win3_3.index t (0 : Fin 2) * 5000 + 1 * (j 0).val = t.val * 5000 + (j 0).val; omega
    | ⟨1, _⟩ => show win3_3.index t (1 : Fin 2) * 128 + 1 * (j 1).val = (j 1).val; omega
  have hj : j = ix2 ⟨(j 0).val, hj0⟩ ⟨(j 1).val, hj1⟩ := funext fun a => by
    match a with
    | ⟨0, _⟩ => rfl
    | ⟨1, _⟩ => rfl
  show k3_pay1 (iblk3 V c 2 t) (iblk3 V c 1 t) (iblk3 V c 0 t) j
    = Cert.Spec.finalize (n := 50000) (V c main_v1_0) (V c main_v12) (V c main_v15) (((cfg3.win 3).blk t).view.emb j)
  rw [hemb]
  refine (congrArg (k3_pay1 (F := Ideal) (iblk3 V c 2 t) (iblk3 V c 1 t) (iblk3 V c 0 t)) hj).trans ?_
  refine (k3_pay1_apply (iblk3 V c 2 t) (iblk3 V c 1 t) (iblk3 V c 0 t) ⟨(j 0).val, hj0⟩ ⟨(j 1).val, hj1⟩).trans ?_
  exact rows_block (V c main_v1_0) (V c main_v12) (V c main_v15) (iblk3 V c 0 t) (iblk3 V c 1 t) (iblk3 V c 2 t) t.val ht
    (fun r k => tgt_read V c t r k) (fun r k => sum_read V c t r k) (fun r => cnt_read V c t r) ⟨(j 0).val, hj0⟩ ⟨(j 1).val, hj1⟩

/-- An index of the output's array is in point t's block iff each coordinate is in the block's range. -/
theorem mem_block (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v30).slice (win3_3.rect t)).set ↔ _
  rw [View.set_slice_whole, Rect.mem_set_unit]
  exact Iff.rfl

/-- Every row of the output is in the block of the point that row's number divided by 5000 names. -/
theorem cover (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : (i 0).val / 5000 < grid3.N := by rw [N_3]; omega
  refine ⟨⟨(i 0).val / 5000, hN⟩, flush3_3 _, ?_⟩
  obtain ⟨-, -, -, -, -, -, e6, e7⟩ := block_index ⟨(i 0).val / 5000, hN⟩
  rw [mem_block]
  intro a
  match a with
  | ⟨0, _⟩ => show win3_3.index ⟨(i 0).val / 5000, hN⟩ (0 : Fin 2) * 5000 ≤ (i 0).val ∧ (i 0).val < win3_3.index ⟨(i 0).val / 5000, hN⟩ (0 : Fin 2) * 5000 + 5000; rw [e6]; show (i 0).val / 5000 * 5000 ≤ (i 0).val ∧ (i 0).val < (i 0).val / 5000 * 5000 + 5000; omega
  | ⟨1, _⟩ => show win3_3.index ⟨(i 0).val / 5000, hN⟩ (1 : Fin 2) * 128 ≤ (i 1).val ∧ (i 1).val < win3_3.index ⟨(i 0).val / 5000, hN⟩ (1 : Fin 2) * 128 + 128; omega

/-- The output after the call: the finalize step of the three operands as the region finds them. -/
theorem output (c : Dev nD) :
    (dat3 V c).arrAt 3 cfg3.N = Cert.Spec.finalize (n := 50000) (V c main_v1_0) (V c main_v12) (V c main_v15) :=
  (dat3 V c).arrAt_eq_of_cover 3 (Cert.Spec.finalize (n := 50000) (V c main_v1_0) (V c main_v12) (V c main_v15))
    (fun t _ => flushed V c t) cover

end Cert.KernelIdeal.Region3

end
-- ==== Proof.HostStretch.lean ====
/-
  The host operations between the kernel's projection calls and its finalize calls, read as functions of the
  arrays they start from, and the layer's whole result as one function of the ten arguments.

  The stretch gathers the rows of a projected array at the edges' source indices (a negative index first
  moved up by the number of rows), adds each gathered row into the row the edge's target index names, and
  counts the edges per target the same way with ones. None of it is opened here: the certificate only needs
  that the stretch is these functions of the projected arrays and the index arrays, whatever they hold.
-/
import proofs.«145316_j59854664237663_2_alg».proof.Proof.Gen.KernelIdeal.Launch
import proofs.«145316_j59854664237663_2_alg».proof.Proof.Spec
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo

/-- The messages into the POIs, summed: the user-side source rows gathered at the edges' (normalised) source
    indices, each added into the row its target index names, from zero. -/
def sumPoi (src : (⟨S100000x128, .f32⟩ : BufTy).Contents (Elt Ideal)) (eSrc eTgt : (⟨S1000000, .i32⟩ : BufTy).Contents (Elt Ideal)) :
    (⟨S50000x128, .f32⟩ : BufTy).Contents (Elt Ideal) :=
  Host.scatterAdd (F := Ideal) scatter_S50000x128_S1000000x1_S1000000x128_1_0_0_1
    (broadcastInDim S50000x128 ![] bcast_S_S50000x128 (constant (F := Ideal) S_ .f32 0x00000000#32))
    (broadcastInDim S1000000x1 ![0] bcast_S1000000_S1000000x1_0 eTgt)
    (Host.gather gather_S100000x128_S1000000x1_S1000000x128_1_0_n_n_0_1_1128 src
      (broadcastInDim S1000000x1 ![0] bcast_S1000000_S1000000x1_0
        (select (cmpi .slt eSrc (broadcastInDim S1000000 ![] bcast_S_S1000000 (constantI S_ 32 0#32)))
          (addi eSrc (broadcastInDim S1000000 ![] bcast_S_S1000000 (constantI S_ 32 100000#32))) eSrc)))

/-- The number of messages into each POI: a one added into the row each edge's target index names, from zero. -/
def cntPoi (eTgt : (⟨S1000000, .i32⟩ : BufTy).Contents (Elt Ideal)) : (⟨S50000x1, .f32⟩ : BufTy).Contents (Elt Ideal) :=
  Host.scatterAdd (F := Ideal) scatter_S50000x1_S1000000x1_S1000000x1_1_0_0_1
    (broadcastInDim S50000x1 ![] bcast_S_S50000x1 (constant (F := Ideal) S_ .f32 0x00000000#32))
    (broadcastInDim S1000000x1 ![0] bcast_S1000000_S1000000x1_0 eTgt)
    (broadcastInDim S1000000x1 ![] bcast_S_S1000000x1 (constant (F := Ideal) S_ .f32 0x3F800000#32))

/-- The messages into the users, summed: the POI-side source rows gathered at the edges' (normalised) source
    indices, each added into the row its target index names, from zero. -/
def sumUser (src : (⟨S50000x128, .f32⟩ : BufTy).Contents (Elt Ideal)) (eSrc eTgt : (⟨S1000000, .i32⟩ : BufTy).Contents (Elt Ideal)) :
    (⟨S100000x128, .f32⟩ : BufTy).Contents (Elt Ideal) :=
  Host.scatterAdd (F := Ideal) scatter_S100000x128_S1000000x1_S1000000x128_1_0_0_1
    (broadcastInDim S100000x128 ![] bcast_S_S100000x128 (constant (F := Ideal) S_ .f32 0x00000000#32))
    (broadcastInDim S1000000x1 ![0] bcast_S1000000_S1000000x1_0 eTgt)
    (Host.gather gather_S50000x128_S1000000x1_S1000000x128_1_0_n_n_0_1_1128 src
      (broadcastInDim S1000000x1 ![0] bcast_S1000000_S1000000x1_0
        (select (cmpi .slt eSrc (broadcastInDim S1000000 ![] bcast_S_S1000000 (constantI S_ 32 0#32)))
          (addi eSrc (broadcastInDim S1000000 ![] bcast_S_S1000000 (constantI S_ 32 50000#32))) eSrc)))

/-- The number of messages into each user. -/
def cntUser (eTgt : (⟨S1000000, .i32⟩ : BufTy).Contents (Elt Ideal)) : (⟨S100000x1, .f32⟩ : BufTy).Contents (Elt Ideal) :=
  Host.scatterAdd (F := Ideal) scatter_S100000x1_S1000000x1_S1000000x1_1_0_0_1
    (broadcastInDim S100000x1 ![] bcast_S_S100000x1 (constant (F := Ideal) S_ .f32 0x00000000#32))
    (broadcastInDim S1000000x1 ![0] bcast_S1000000_S1000000x1_0 eTgt)
    (broadcastInDim S1000000x1 ![] bcast_S_S1000000x1 (constant (F := Ideal) S_ .f32 0x3F800000#32))

/-- The layer's result from the four projections' operands and the four edge-index arrays: the finalized user
    rows (their own projection by the fourth weight, the mean of the messages projected from the POIs by the
    third) above the finalized POI rows (their own projection by the second weight, the mean of the messages
    projected from the users by the first). -/
def result (xu : (⟨S100000x128, .f32⟩ : BufTy).Contents (Elt Ideal)) (xp : (⟨S50000x128, .f32⟩ : BufTy).Contents (Elt Ideal))
    (w2 w3 w4 w5 : (⟨S128x128, .f32⟩ : BufTy).Contents (Elt Ideal)) (e6 e7 e8 e9 : (⟨S1000000, .i32⟩ : BufTy).Contents (Elt Ideal)) :
    (⟨S150000x128, .f32⟩ : BufTy).Contents (Elt Ideal) :=
  concatenate S150000x128 0
    [⟨S100000x128, Cert.Spec.finalize (n := 100000) (Cert.Spec.proj (n := 100000) xu w5)
        (sumUser (Cert.Spec.proj (n := 50000) xp w4) e8 e9) (cntUser e9)⟩,
     ⟨S50000x128, Cert.Spec.finalize (n := 50000) (Cert.Spec.proj (n := 50000) xp w3)
        (sumPoi (Cert.Spec.proj (n := 100000) xu w2) e6 e7) (cntPoi e7)⟩]
    concatenates_S100000x128_S50000x128_S150000x128_d0

/-! ## The stretch between the calls, from any contents -/

variable (W : Valuation τ sig (Elt Ideal))

set_option maxRecDepth 8192 in
set_option maxHeartbeats 4000000 in
theorem stretch_sumPoi : StableHlo.after (hostOps2 (F := Ideal)) W (Proc.devRef .tc main_v12)
    = sumPoi (W (Proc.devRef .tc main_v0_0)) (W (Proc.devRef .tc main_arg6)) (W (Proc.devRef .tc main_arg7)) := by
  unfold sumPoi
  after_results_simp <;> rfl

set_option maxRecDepth 8192 in
set_option maxHeartbeats 4000000 in
theorem stretch_cntPoi : StableHlo.after (hostOps2 (F := Ideal)) W (Proc.devRef .tc main_v15)
    = cntPoi (W (Proc.devRef .tc main_arg7)) := by
  unfold cntPoi
  after_results_simp <;> rfl

set_option maxRecDepth 8192 in
set_option maxHeartbeats 4000000 in
theorem stretch_sumUser : StableHlo.after (hostOps2 (F := Ideal)) W (Proc.devRef .tc main_v25)
    = sumUser (W (Proc.devRef .tc main_v1_1)) (W (Proc.devRef .tc main_arg8)) (W (Proc.devRef .tc main_arg9)) := by
  unfold sumUser
  after_results_simp <;> rfl

set_option maxRecDepth 8192 in
set_option maxHeartbeats 4000000 in
theorem stretch_cntUser : StableHlo.after (hostOps2 (F := Ideal)) W (Proc.devRef .tc main_v28)
    = cntUser (W (Proc.devRef .tc main_arg9)) := by
  unfold cntUser
  after_results_simp <;> rfl

set_option maxRecDepth 8192 in
set_option maxHeartbeats 4000000 in
/-- The stretch writes neither target projection. -/
theorem stretch_keeps_tgt_user : StableHlo.after (hostOps2 (F := Ideal)) W (Proc.devRef .tc main_v0_1) = W (Proc.devRef .tc main_v0_1) := by
  after_results_simp <;> rfl

set_option maxRecDepth 8192 in
set_option maxHeartbeats 4000000 in
theorem stretch_keeps_tgt_poi : StableHlo.after (hostOps2 (F := Ideal)) W (Proc.devRef .tc main_v1_0) = W (Proc.devRef .tc main_v1_0) := by
  after_results_simp <;> rfl

/-- The closing operation joins the two finalized arrays, users above POIs. -/
theorem closing : StableHlo.after (hostOps4 (F := Ideal)) W (Proc.devRef .tc main_v31)
    = concatenate S150000x128 0 [⟨S100000x128, W (Proc.devRef .tc main_v29)⟩, ⟨S50000x128, W (Proc.devRef .tc main_v30)⟩]
        concatenates_S100000x128_S50000x128_S150000x128_d0 := by
  after_results_simp <;> rfl

end Cert.KernelIdeal.Chain

end
-- ==== Proof.KernelRun.lean ====
/-
  The idealized kernel program run from any memory: every weakly fair execution ends with the result buffer
  holding the layer's result of the ten argument arrays as launched, and the arguments unchanged.

  The program is two projection calls, a stretch of host operations, two finalize calls and a closing join.
  The buffer contents at each boundary are a fold from the launch memory; read back from the end, the result
  is the join of the two finalized arrays, each finalized array the finalize step of a target projection and
  the stretch's sums and counts, the sums the stretch's function of a source projection, and each projection
  the rows of an argument times a weight argument. No call and no host operation writes an argument.
-/
import proofs.«145316_j59854664237663_2_alg».proof.Proof.Region0
import proofs.«145316_j59854664237663_2_alg».proof.Proof.Region1
import proofs.«145316_j59854664237663_2_alg».proof.Proof.Region2
import proofs.«145316_j59854664237663_2_alg».proof.Proof.Region3
import proofs.«145316_j59854664237663_2_alg».proof.Proof.HostStretch

set_option maxRecDepth 16384

noncomputable section

namespace Cert.KernelIdeal.Whole

open Cert.KernelIdeal Cert.KernelIdeal.Gen Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The run, with the result buffer named at the last boundary's contents -/

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the
    last boundary's contents and the argument arrays as launched: the segments' chain ends with every
    unscoped buffer at those contents, and the result buffer is one of them. -/
theorem run_at_boundary : θ_run defs (onTc (τ := τ) (main (F := F))) ⟨m, fun _ => 0, ρ⟩ (fun r => ∀ c : Dev nD,
      r.2.mem ((c.tc : Thread nD τ).loc main_v31) = W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v31 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Run

/-! ## The last boundary's contents, read back to the arguments -/

variable (m : (ℓ : Loc nD τ sig) → Buf (Elt Ideal) ℓ) (ρ : Dev nD → PrngReg)

/-- Neither projection call writes an argument: after both, an argument's buffer holds what was launched. -/
theorem kept2 (c : Dev nD) (b : Ref sig .tc) (h0 : ∀ w, Pipeline.arrRef spec0 w ≠ b) (h1 : ∀ w, Pipeline.arrRef spec1 w ≠ b) :
    W2 m ρ c (Proc.devRef .tc b) = m ((c : Thread nD τ).loc b) :=
  (W2_of_ne m ρ c b h1).trans ((W1_of_ne m ρ c b h0).trans rfl)

/-- The users' source projection (first weight) after the two projection calls. -/
theorem src_user (c : Dev nD) : W2 m ρ c (Proc.devRef .tc main_v0_0)
    = Cert.Spec.proj (n := 100000) (m ((c.tc : Thread nD τ).loc main_arg0)) (m ((c.tc : Thread nD τ).loc main_arg2)) :=
  calc W2 m ρ c (Proc.devRef .tc main_v0_0)
    _ = W1 m ρ c (Proc.devRef .tc main_v0_0) := W2_of_ne m ρ c main_v0_0 (by decide)
    _ = (dat0 (V0 m ρ) c).arrAt 3 cfg0.N := W1_arr m ρ c 3
    _ = Cert.Spec.proj (n := 100000) (V0 m ρ c main_arg0) (V0 m ρ c main_arg2) := Cert.KernelIdeal.Region0.first_output (V0 m ρ) c
    _ = _ := rfl

/-- The users' target projection (fourth weight). -/
theorem tgt_user (c : Dev nD) : W2 m ρ c (Proc.devRef .tc main_v0_1)
    = Cert.Spec.proj (n := 100000) (m ((c.tc : Thread nD τ).loc main_arg0)) (m ((c.tc : Thread nD τ).loc main_arg5)) :=
  calc W2 m ρ c (Proc.devRef .tc main_v0_1)
    _ = W1 m ρ c (Proc.devRef .tc main_v0_1) := W2_of_ne m ρ c main_v0_1 (by decide)
    _ = (dat0 (V0 m ρ) c).arrAt 4 cfg0.N := W1_arr m ρ c 4
    _ = Cert.Spec.proj (n := 100000) (V0 m ρ c main_arg0) (V0 m ρ c main_arg5) := Cert.KernelIdeal.Region0.second_output (V0 m ρ) c
    _ = _ := rfl

/-- What the second projection call finds in an argument's buffer is what was launched. -/
theorem entry1 (c : Dev nD) (b : Ref sig .tc) (h0 : ∀ w, Pipeline.arrRef spec0 w ≠ b) :
    V1 m ρ c b = m ((c : Thread nD τ).loc b) := (W1_of_ne m ρ c b h0).trans rfl

/-- The POIs' target projection (second weight). -/
theorem tgt_poi (c : Dev nD) : W2 m ρ c (Proc.devRef .tc main_v1_0)
    = Cert.Spec.proj (n := 50000) (m ((c.tc : Thread nD τ).loc main_arg1)) (m ((c.tc : Thread nD τ).loc main_arg3)) :=
  calc W2 m ρ c (Proc.devRef .tc main_v1_0)
    _ = (dat1 (V1 m ρ) c).arrAt 3 cfg1.N := W2_arr m ρ c 3
    _ = Cert.Spec.proj (n := 50000) (V1 m ρ c main_arg1) (V1 m ρ c main_arg3) := Cert.KernelIdeal.Region1.first_output (V1 m ρ) c
    _ = _ := congrArg₂ (Cert.Spec.proj (n := 50000)) (entry1 m ρ c main_arg1 (by decide)) (entry1 m ρ c main_arg3 (by decide))

/-- The POIs' source projection (third weight). -/
theorem src_poi (c : Dev nD) : W2 m ρ c (Proc.devRef .tc main_v1_1)
    = Cert.Spec.proj (n := 50000) (m ((c.tc : Thread nD τ).loc main_arg1)) (m ((c.tc : Thread nD τ).loc main_arg4)) :=
  calc W2 m ρ c (Proc.devRef .tc main_v1_1)
    _ = (dat1 (V1 m ρ) c).arrAt 4 cfg1.N := W2_arr m ρ c 4
    _ = Cert.Spec.proj (n := 50000) (V1 m ρ c main_arg1) (V1 m ρ c main_arg4) := Cert.KernelIdeal.Region1.second_output (V1 m ρ) c
    _ = _ := congrArg₂ (Cert.Spec.proj (n := 50000)) (entry1 m ρ c main_arg1 (by decide)) (entry1 m ρ c main_arg4 (by decide))

/-- The finalized user rows: what the first finalize call leaves, which the second does not touch. -/
theorem out_user (c : Dev nD) : W5 m ρ c (Proc.devRef .tc main_v29)
    = Cert.Spec.finalize (n := 100000) (Cert.Spec.proj (n := 100000) (m ((c.tc : Thread nD τ).loc main_arg0)) (m ((c.tc : Thread nD τ).loc main_arg5)))
        (sumUser (Cert.Spec.proj (n := 50000) (m ((c.tc : Thread nD τ).loc main_arg1)) (m ((c.tc : Thread nD τ).loc main_arg4))) (m ((c.tc : Thread nD τ).loc main_arg8)) (m ((c.tc : Thread nD τ).loc main_arg9)))
        (cntUser (m ((c.tc : Thread nD τ).loc main_arg9))) := by
  have e0 : V3 m ρ c main_v0_1 = Cert.Spec.proj (n := 100000) (m ((c.tc : Thread nD τ).loc main_arg0)) (m ((c.tc : Thread nD τ).loc main_arg5)) :=
    (stretch_keeps_tgt_user (W2 m ρ c)).trans (tgt_user m ρ c)
  have e1 : V3 m ρ c main_v25 = sumUser (Cert.Spec.proj (n := 50000) (m ((c.tc : Thread nD τ).loc main_arg1)) (m ((c.tc : Thread nD τ).loc main_arg4))) (m ((c.tc : Thread nD τ).loc main_arg8)) (m ((c.tc : Thread nD τ).loc main_arg9)) := by
    refine (stretch_sumUser (W2 m ρ c)).trans ?_
    rw [src_poi m ρ c, kept2 m ρ c main_arg8 (by decide) (by decide), kept2 m ρ c main_arg9 (by decide) (by decide)]
  have e2 : V3 m ρ c main_v28 = cntUser (m ((c.tc : Thread nD τ).loc main_arg9)) := by
    refine (stretch_cntUser (W2 m ρ c)).trans ?_
    rw [kept2 m ρ c main_arg9 (by decide) (by decide)]
  calc W5 m ρ c (Proc.devRef .tc main_v29)
    _ = W4 m ρ c (Proc.devRef .tc main_v29) := W5_of_ne m ρ c main_v29 (by decide)
    _ = (dat2 (V3 m ρ) c).arrAt 3 cfg2.N := W4_arr m ρ c 3
    _ = Cert.Spec.finalize (n := 100000) (V3 m ρ c main_v0_1) (V3 m ρ c main_v25) (V3 m ρ c main_v28) := Cert.KernelIdeal.Region2.output (V3 m ρ) c
    _ = _ := by rw [e0, e1, e2]

/-- The finalized POI rows: what the second finalize call leaves. -/
theorem out_poi (c : Dev nD) : W5 m ρ c (Proc.devRef .tc main_v30)
    = Cert.Spec.finalize (n := 50000) (Cert.Spec.proj (n := 50000) (m ((c.tc : Thread nD τ).loc main_arg1)) (m ((c.tc : Thread nD τ).loc main_arg3)))
        (sumPoi (Cert.Spec.proj (n := 100000) (m ((c.tc : Thread nD τ).loc main_arg0)) (m ((c.tc : Thread nD τ).loc main_arg2))) (m ((c.tc : Thread nD τ).loc main_arg6)) (m ((c.tc : Thread nD τ).loc main_arg7)))
        (cntPoi (m ((c.tc : Thread nD τ).loc main_arg7))) := by
  have e0 : V4 m ρ c main_v1_0 = Cert.Spec.proj (n := 50000) (m ((c.tc : Thread nD τ).loc main_arg1)) (m ((c.tc : Thread nD τ).loc main_arg3)) :=
    (W4_of_ne m ρ c main_v1_0 (by decide)).trans ((stretch_keeps_tgt_poi (W2 m ρ c)).trans (tgt_poi m ρ c))
  have e1 : V4 m ρ c main_v12 = sumPoi (Cert.Spec.proj (n := 100000) (m ((c.tc : Thread nD τ).loc main_arg0)) (m ((c.tc : Thread nD τ).loc main_arg2))) (m ((c.tc : Thread nD τ).loc main_arg6)) (m ((c.tc : Thread nD τ).loc main_arg7)) := by
    refine (W4_of_ne m ρ c main_v12 (by decide)).trans ((stretch_sumPoi (W2 m ρ c)).trans ?_)
    rw [src_user m ρ c, kept2 m ρ c main_arg6 (by decide) (by decide), kept2 m ρ c main_arg7 (by decide) (by decide)]
  have e2 : V4 m ρ c main_v15 = cntPoi (m ((c.tc : Thread nD τ).loc main_arg7)) := by
    refine (W4_of_ne m ρ c main_v15 (by decide)).trans ((stretch_cntPoi (W2 m ρ c)).trans ?_)
    rw [kept2 m ρ c main_arg7 (by decide) (by decide)]
  calc W5 m ρ c (Proc.devRef .tc main_v30)
    _ = (dat3 (V4 m ρ) c).arrAt 3 cfg3.N := W5_arr m ρ c 3
    _ = Cert.Spec.finalize (n := 50000) (V4 m ρ c main_v1_0) (V4 m ρ c main_v12) (V4 m ρ c main_v15) := Cert.KernelIdeal.Region3.output (V4 m ρ) c
    _ = _ := by rw [e0, e1, e2]

/-- The result buffer at the last boundary is the layer's result of the arguments as launched. -/
theorem result_eq (c : Dev nD) : W6 m ρ c (Proc.devRef .tc main_v31) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (closing (W5 m ρ c)).trans ?_
  rw [out_user m ρ c, out_poi m ρ c]
  rfl

/-- The idealized kernel's run: the result buffer ends at the layer's result of the arguments, the arguments
    unchanged. -/
theorem run : θ_run defs (onTc (τ := τ) (main (F := Ideal))) ⟨m, fun _ => 0, ρ⟩ (fun r => ∀ c : Dev nD,
      r.2.mem ((c.tc : Thread nD τ).loc main_v31) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (run_at_boundary m ρ)

end Cert.KernelIdeal.Whole

end
-- ==== Proof.LibDotGeneralAt.lean ====
/-
  A general fact about a host contraction, for any sizes.

  * dotGeneral_at: a host dot_general of a plain matrix product (rows × contracted axis, contracted axis ×
    columns), read at entry (r, c) at the ideal instance, is the sum over the contracted axis of
    lhs[r,k] · rhs[k,c], whatever the precision and the schedule key. It is the host-side companion of the
    same reading of a kernel's matrix product into the zero accumulator: the two sums are then literally the
    same sum over Fin K.
-/
import Idealize.ShloMosaic.PureOps.Ideal.Laws
import Idealize.ShloMosaic.Lib.ValueIdx

noncomputable section

namespace Cert.Lib.DotGeneralAt

open Idealize.ShloMosaic Idealize.ShloMosaic.ValueIdx

/-- A host dot_general of a plain matrix product, read at entry (r, c): the sum over the contracted axis of
    the row's entries times the column's. The four hypotheses name the coordinates of the operands' indices at
    an output index and a contraction index (for a printed dimension record: two by unfolding the index maps,
    two by the library's lhsIdx_val_of_single / rhsIdx_val_of_single). -/
theorem dotGeneral_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision) (sched : HostSchedule)
    (lhs : FVec Ideal ⟨2, ![n, K]⟩ φ₁) (rhs : FVec Ideal ⟨2, ![K, d]⟩ φ₂) (r : Fin n) (c : Fin d) :
    FloatOps.dotGeneral D prec sched lhs rhs (ix2 r c) = ∑ k : Fin K, lhs (ix2 r k) * rhs (ix2 k c) := by
  rw [Ideal.dotGeneral_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.DotGeneralAt

end
-- ==== Proof.RefValue.lean ====
/-
  The reference program's result as the layer's result of the ten arguments.

  The reference computes the four projections by the host's matrix product, whose entry (r, c) on the extended
  reals is the sum over k of x[r,k] * w[k,c]: the projection of the specification. It gathers, sums and counts
  by the same host operations as the kernel program, and finalizes by the host's own spelling of
  max(tgt + sum / max(cnt, 1), 0): the one-column count array raised to at least one, repeated across the 128
  columns, divided into the sums, added to the target projection, and the result raised to at least zero,
  which entry by entry is the finalize step of the specification.
-/
import proofs.«145316_j59854664237663_2_alg».proof.Proof.Gen.ReferenceIdeal.Read
import proofs.«145316_j59854664237663_2_alg».proof.Proof.Spec
import proofs.«145316_j59854664237663_2_alg».proof.Proof.LibDotGeneralAt
import Idealize.ShloMosaic.Lib.Pipeline.Value

noncomputable section

namespace Cert.ReferenceIdeal.Whole

open Cert.ReferenceIdeal Cert.ReferenceIdeal.Gen Idealize.ShloMosaic Idealize.ShloMosaic.TcCoe Idealize.SL.Sem
open Idealize.ShloMosaic.ValueIdx

/-- The messages into the POIs, summed: the user-side source rows gathered at the edges' (normalised) source
    indices, each added into the row its target index names, from zero. -/
def sumPoi (src : (⟨S100000x128, .f32⟩ : BufTy).Contents (Elt Ideal)) (eSrc eTgt : (⟨S1000000, .i32⟩ : BufTy).Contents (Elt Ideal)) :
    (⟨S50000x128, .f32⟩ : BufTy).Contents (Elt Ideal) :=
  Host.scatterAdd (F := Ideal) scatter_S50000x128_S1000000x1_S1000000x128_1_0_0_1
    (broadcastInDim S50000x128 ![] bcast_S_S50000x128 (constant (F := Ideal) S_ .f32 0x00000000#32))
    (broadcastInDim S1000000x1 ![0] bcast_S1000000_S1000000x1_0 eTgt)
    (Host.gather gather_S100000x128_S1000000x1_S1000000x128_1_0_n_n_0_1_1128 src
      (broadcastInDim S1000000x1 ![0] bcast_S1000000_S1000000x1_0
        (select (cmpi .slt eSrc (broadcastInDim S1000000 ![] bcast_S_S1000000 (constantI S_ 32 0#32)))
          (addi eSrc (broadcastInDim S1000000 ![] bcast_S_S1000000 (constantI S_ 32 100000#32))) eSrc)))

/-- The number of messages into each POI: a one added into the row each edge's target index names, from zero. -/
def cntPoi (eTgt : (⟨S1000000, .i32⟩ : BufTy).Contents (Elt Ideal)) : (⟨S50000x1, .f32⟩ : BufTy).Contents (Elt Ideal) :=
  Host.scatterAdd (F := Ideal) scatter_S50000x1_S1000000x1_S1000000x1_1_0_0_1
    (broadcastInDim S50000x1 ![] bcast_S_S50000x1 (constant (F := Ideal) S_ .f32 0x00000000#32))
    (broadcastInDim S1000000x1 ![0] bcast_S1000000_S1000000x1_0 eTgt)
    (broadcastInDim S1000000x1 ![] bcast_S_S1000000x1 (constant (F := Ideal) S_ .f32 0x3F800000#32))

/-- The messages into the users, summed: the POI-side source rows gathered at the edges' (normalised) source
    indices, each added into the row its target index names, from zero. -/
def sumUser (src : (⟨S50000x128, .f32⟩ : BufTy).Contents (Elt Ideal)) (eSrc eTgt : (⟨S1000000, .i32⟩ : BufTy).Contents (Elt Ideal)) :
    (⟨S100000x128, .f32⟩ : BufTy).Contents (Elt Ideal) :=
  Host.scatterAdd (F := Ideal) scatter_S100000x128_S1000000x1_S1000000x128_1_0_0_1
    (broadcastInDim S100000x128 ![] bcast_S_S100000x128 (constant (F := Ideal) S_ .f32 0x00000000#32))
    (broadcastInDim S1000000x1 ![0] bcast_S1000000_S1000000x1_0 eTgt)
    (Host.gather gather_S50000x128_S1000000x1_S1000000x128_1_0_n_n_0_1_1128 src
      (broadcastInDim S1000000x1 ![0] bcast_S1000000_S1000000x1_0
        (select (cmpi .slt eSrc (broadcastInDim S1000000 ![] bcast_S_S1000000 (constantI S_ 32 0#32)))
          (addi eSrc (broadcastInDim S1000000 ![] bcast_S_S1000000 (constantI S_ 32 50000#32))) eSrc)))

/-- The number of messages into each user. -/
def cntUser (eTgt : (⟨S1000000, .i32⟩ : BufTy).Contents (Elt Ideal)) : (⟨S100000x1, .f32⟩ : BufTy).Contents (Elt Ideal) :=
  Host.scatterAdd (F := Ideal) scatter_S100000x1_S1000000x1_S1000000x1_1_0_0_1
    (broadcastInDim S100000x1 ![] bcast_S_S100000x1 (constant (F := Ideal) S_ .f32 0x00000000#32))
    (broadcastInDim S1000000x1 ![0] bcast_S1000000_S1000000x1_0 eTgt)
    (broadcastInDim S1000000x1 ![] bcast_S_S1000000x1 (constant (F := Ideal) S_ .f32 0x3F800000#32))

/-- The layer's result from the four projections' operands and the four edge-index arrays: the finalized user
    rows (their own projection by the fourth weight, the mean of the messages projected from the POIs by the
    third) above the finalized POI rows (their own projection by the second weight, the mean of the messages
    projected from the users by the first). -/
def result (xu : (⟨S100000x128, .f32⟩ : BufTy).Contents (Elt Ideal)) (xp : (⟨S50000x128, .f32⟩ : BufTy).Contents (Elt Ideal))
    (w2 w3 w4 w5 : (⟨S128x128, .f32⟩ : BufTy).Contents (Elt Ideal)) (e6 e7 e8 e9 : (⟨S1000000, .i32⟩ : BufTy).Contents (Elt Ideal)) :
    (⟨S150000x128, .f32⟩ : BufTy).Contents (Elt Ideal) :=
  concatenate S150000x128 0
    [⟨S100000x128, Cert.Spec.finalize (n := 100000) (Cert.Spec.proj (n := 100000) xu w5)
        (sumUser (Cert.Spec.proj (n := 50000) xp w4) e8 e9) (cntUser e9)⟩,
     ⟨S50000x128, Cert.Spec.finalize (n := 50000) (Cert.Spec.proj (n := 50000) xp w3)
        (sumPoi (Cert.Spec.proj (n := 100000) xu w2) e6 e7) (cntPoi e7)⟩]
    concatenates_S100000x128_S50000x128_S150000x128_d0

/-! ## The host's matrix products are the specification's projections -/

/-- The host's product of the user rows with a weight matrix. -/
theorem dot_user (x : FVec Ideal S100000x128 .f32) (w : FVec Ideal S128x128 .f32) :
    Host.dotGeneral (F := Ideal) dot_S100000x128_S128x128_S100000x128_1_0_0_1_n_n none x w = Cert.Spec.proj (n := 100000) x w := by
  funext i
  obtain ⟨r, c, rfl⟩ : ∃ (r : Fin 100000) (c : Fin 128), i = ix2 r c := ⟨i 0, i 1, eq_ix2 i⟩
  rw [Cert.Spec.proj_apply]
  simp only [Host.dotGeneral]
  exact Cert.Lib.DotGeneralAt.dotGeneral_at (n := 100000) (K := 128) (d := 128) dot_S100000x128_S128x128_S100000x128_1_0_0_1_n_n rfl rfl
    Cert.ReferenceIdeal.Read.lhs_main_v0_0 Cert.ReferenceIdeal.Read.lhs_main_v0_1 Cert.ReferenceIdeal.Read.rhs_main_v0_0 Cert.ReferenceIdeal.Read.rhs_main_v0_1
    none _ x w r c

/-- The host's product of the POI rows with a weight matrix. -/
theorem dot_poi (x : FVec Ideal S50000x128 .f32) (w : FVec Ideal S128x128 .f32) :
    Host.dotGeneral (F := Ideal) dot_S50000x128_S128x128_S50000x128_1_0_0_1_n_n none x w = Cert.Spec.proj (n := 50000) x w := by
  funext i
  obtain ⟨r, c, rfl⟩ : ∃ (r : Fin 50000) (c : Fin 128), i = ix2 r c := ⟨i 0, i 1, eq_ix2 i⟩
  rw [Cert.Spec.proj_apply]
  simp only [Host.dotGeneral]
  exact Cert.Lib.DotGeneralAt.dotGeneral_at (n := 50000) (K := 128) (d := 128) dot_S50000x128_S128x128_S50000x128_1_0_0_1_n_n rfl rfl
    Cert.ReferenceIdeal.Read.lhs_main_v1_0 Cert.ReferenceIdeal.Read.lhs_main_v1_1 Cert.ReferenceIdeal.Read.rhs_main_v1_0 Cert.ReferenceIdeal.Read.rhs_main_v1_1
    none _ x w r c

/-! ## The host's finalize is the specification's -/

/-- The host's spelling of the finalize step, for any number of rows other than one: entry (r, c) is
    max(tgt[r,c] + sum[r,c] / max(cnt[r,0], 1), 0). -/
theorem finalize_host {n : Nat} (hn : ¬ n = 1)
    (hcol : (⟨2, ![n, 1]⟩ : Shape).BroadcastsInDim ⟨2, ![n, 128]⟩ ![0, 1])
    (hzero : (⟨0, ![]⟩ : Shape).BroadcastsInDim ⟨2, ![n, 128]⟩ ![])
    (hone : (⟨0, ![]⟩ : Shape).BroadcastsInDim ⟨2, ![n, 1]⟩ ![])
    (T S : FVec Ideal ⟨2, ![n, 128]⟩ .f32) (C : FVec Ideal ⟨2, ![n, 1]⟩ .f32) :
    maximumf (F := Ideal) (addf (F := Ideal) T (Host.divf (F := Ideal) S
        (broadcastInDim ⟨2, ![n, 128]⟩ ![0, 1] hcol (maximumf (F := Ideal) C
          (broadcastInDim ⟨2, ![n, 1]⟩ ![] hone (constant (F := Ideal) ⟨0, ![]⟩ .f32 0x3F800000#32))))))
        (broadcastInDim ⟨2, ![n, 128]⟩ ![] hzero (constant (F := Ideal) ⟨0, ![]⟩ .f32 0x00000000#32))
      = Cert.Spec.finalize T S C := by
  funext i
  obtain ⟨r, c, rfl⟩ : ∃ (r : Fin n) (c : Fin 128), i = ix2 r c := ⟨i 0, i 1, eq_ix2 i⟩
  rw [Cert.Spec.finalize_apply]
  have hb : ∀ Y : FVec Ideal ⟨2, ![n, 1]⟩ .f32,
      broadcastInDim ⟨2, ![n, 128]⟩ ![0, 1] hcol Y (ix2 r c) = Y (ix2 r (0 : Fin 1)) := fun Y =>
    broadcastInDim_apply _ hcol Y (ix2 r c) (ix2 r (0 : Fin 1)) (fun a => match a with
      | ⟨0, _⟩ => by show r.val = if n = 1 then 0 else r.val; rw [if_neg hn]
      | ⟨1, _⟩ => by show 0 = if (1 : Nat) = 1 then 0 else c.val; rw [if_pos rfl])
  have hz : ∀ Z : FVec Ideal ⟨0, ![]⟩ .f32, broadcastInDim ⟨2, ![n, 128]⟩ ![] hzero Z (ix2 r c) = Z ix0 := fun Z =>
    broadcastInDim_apply _ hzero Z (ix2 r c) ix0 (fun a => a.elim0)
  have ho : ∀ Z : FVec Ideal ⟨0, ![]⟩ .f32, broadcastInDim ⟨2, ![n, 1]⟩ ![] hone Z (ix2 r (0 : Fin 1)) = Z ix0 := fun Z =>
    broadcastInDim_apply _ hone Z (ix2 r (0 : Fin 1)) ix0 (fun a => a.elim0)
  show max (T (ix2 r c) + Ideal.div (S (ix2 r c)) (broadcastInDim ⟨2, ![n, 128]⟩ ![0, 1] hcol (maximumf (F := Ideal) C
          (broadcastInDim ⟨2, ![n, 1]⟩ ![] hone (constant (F := Ideal) ⟨0, ![]⟩ .f32 0x3F800000#32))) (ix2 r c)))
      (broadcastInDim ⟨2, ![n, 128]⟩ ![] hzero (constant (F := Ideal) ⟨0, ![]⟩ .f32 0x00000000#32) (ix2 r c)) = _
  rw [hb, hz, maximumf_apply, ho]
  rfl

/-! ## The reference's result -/

set_option maxRecDepth 8192 in
/-- The composed term the reference's run ends with is the layer's result. -/
theorem run_term_eq (xu : FVec Ideal S100000x128 .f32) (xp : FVec Ideal S50000x128 .f32)
    (w2 w3 w4 w5 : FVec Ideal S128x128 .f32) (e6 e7 e8 e9 : (⟨S1000000, .i32⟩ : BufTy).Contents (Elt Ideal)) :
    (concatenate S150000x128 0 [⟨S100000x128, (maximumf (F := Ideal) (addf (F := Ideal) (Host.dotGeneral (F := Ideal) dot_S100000x128_S128x128_S100000x128_1_0_0_1_n_n none xu w5) (Host.divf (F := Ideal) (Host.scatterAdd (F := Ideal) scatter_S100000x128_S1000000x1_S1000000x128_1_0_0_1 (broadcastInDim S100000x128 ![] bcast_S_S100000x128 (constant (F := Ideal) S_ .f32 0x00000000#32)) (broadcastInDim S1000000x1 ![0] bcast_S1000000_S1000000x1_0 e9) (Host.gather gather_S50000x128_S1000000x1_S1000000x128_1_0_n_n_0_1_1128 (Host.dotGeneral (F := Ideal) dot_S50000x128_S128x128_S50000x128_1_0_0_1_n_n none xp w4) (broadcastInDim S1000000x1 ![0] bcast_S1000000_S1000000x1_0 (select (cmpi .slt e8 (broadcastInDim S1000000 ![] bcast_S_S1000000 (constantI S_ 32 0#32))) (addi e8 (broadcastInDim S1000000 ![] bcast_S_S1000000 (constantI S_ 32 50000#32))) e8)))) (broadcastInDim S100000x128 ![0, 1] bcast_S100000x1_S100000x128_0_1 (maximumf (F := Ideal) (Host.scatterAdd (F := Ideal) scatter_S100000x1_S1000000x1_S1000000x1_1_0_0_1 (broadcastInDim S100000x1 ![] bcast_S_S100000x1 (constant (F := Ideal) S_ .f32 0x00000000#32)) (broadcastInDim S1000000x1 ![0] bcast_S1000000_S1000000x1_0 e9) (broadcastInDim S1000000x1 ![] bcast_S_S1000000x1 (constant (F := Ideal) S_ .f32 0x3F800000#32))) (broadcastInDim S100000x1 ![] bcast_S_S100000x1 (constant (F := Ideal) S_ .f32 0x3F800000#32)))))) (broadcastInDim S100000x128 ![] bcast_S_S100000x128 (constant (F := Ideal) S_ .f32 0x00000000#32)))⟩, ⟨S50000x128, (maximumf (F := Ideal) (addf (F := Ideal) (Host.dotGeneral (F := Ideal) dot_S50000x128_S128x128_S50000x128_1_0_0_1_n_n none xp w3) (Host.divf (F := Ideal) (Host.scatterAdd (F := Ideal) scatter_S50000x128_S1000000x1_S1000000x128_1_0_0_1 (broadcastInDim S50000x128 ![] bcast_S_S50000x128 (constant (F := Ideal) S_ .f32 0x00000000#32)) (broadcastInDim S1000000x1 ![0] bcast_S1000000_S1000000x1_0 e7) (Host.gather gather_S100000x128_S1000000x1_S1000000x128_1_0_n_n_0_1_1128 (Host.dotGeneral (F := Ideal) dot_S100000x128_S128x128_S100000x128_1_0_0_1_n_n none xu w2) (broadcastInDim S1000000x1 ![0] bcast_S1000000_S1000000x1_0 (select (cmpi .slt e6 (broadcastInDim S1000000 ![] bcast_S_S1000000 (constantI S_ 32 0#32))) (addi e6 (broadcastInDim S1000000 ![] bcast_S_S1000000 (constantI S_ 32 100000#32))) e6)))) (broadcastInDim S50000x128 ![0, 1] bcast_S50000x1_S50000x128_0_1 (maximumf (F := Ideal) (Host.scatterAdd (F := Ideal) scatter_S50000x1_S1000000x1_S1000000x1_1_0_0_1 (broadcastInDim S50000x1 ![] bcast_S_S50000x1 (constant (F := Ideal) S_ .f32 0x00000000#32)) (broadcastInDim S1000000x1 ![0] bcast_S1000000_S1000000x1_0 e7) (broadcastInDim S1000000x1 ![] bcast_S_S1000000x1 (constant (F := Ideal) S_ .f32 0x3F800000#32))) (broadcastInDim S50000x1 ![] bcast_S_S50000x1 (constant (F := Ideal) S_ .f32 0x3F800000#32)))))) (broadcastInDim S50000x128 ![] bcast_S_S50000x128 (constant (F := Ideal) S_ .f32 0x00000000#32)))⟩] concatenates_S100000x128_S50000x128_S150000x128_d0 : (⟨S150000x128, .f32⟩ : BufTy).Contents (Elt Ideal))
      = result xu xp w2 w3 w4 w5 e6 e7 e8 e9 := by
  rw [dot_user xu w5, dot_user xu w2, dot_poi xp w4, dot_poi xp w3]
  rw [finalize_host (n := 100000) (by decide) bcast_S100000x1_S100000x128_0_1 bcast_S_S100000x128 bcast_S_S100000x1,
    finalize_host (n := 50000) (by decide) bcast_S50000x1_S50000x128_0_1 bcast_S_S50000x128 bcast_S_S50000x1]
  rfl

end Cert.ReferenceIdeal.Whole

end
-- ==== Proof.lean ====
/-
  One layer of message passing between 100000 user rows and 50000 POI rows of 128 features, over two lists of
  a million edges: each side's rows are projected by a target weight and by a source weight; the source
  projections are gathered along the edges and averaged into their targets (the sum of the incoming messages
  over their number, a target with none dividing by one); the result is max(target projection + mean, 0), the
  user rows above the POI rows.

  The kernel program computes the four projections in two tiled calls (each block of 5000 rows times two
  128 x 128 weights, the operands rounded to bf16 on the way in, which on the extended reals changes
  nothing), gathers, sums and counts on the host, and finalizes in two tiled calls. The reference computes
  the projections by the host's matrix product and finalizes by host operations. On the extended reals both
  end with one and the same function of the ten arguments:

  * a row of a product depends only on the same row of the left operand, so the tiled product is the whole
    product, and both are the sum over k of x[r,k] * w[k,c] (sums of extended reals do not depend on order
    or grouping, so no finiteness of the inputs is used);
  * the gather, the two scatter-adds per edge list and the closing join are the same host operations in both
    programs, applied to equal arrays, and are never opened;
  * entry (r, c) of the finalize step depends only on row r of its three operands, so the tiled finalize is
    the whole one, and the host's spelling of it (broadcast the raised count across the columns, divide,
    add, raise to zero) is the same entry by entry.

  The frames of the two kernel programs are the generated ones; the reference's frame is its generated run
  with the result dropped. The idealization rewrote nothing, so there is nothing to preserve.
-/
import proofs.«145316_j59854664237663_2_alg».proof.Defs
import proofs.«145316_j59854664237663_2_alg».proof.Proof.Gen.Kernel
import proofs.«145316_j59854664237663_2_alg».proof.Proof.Gen.Kernel.Skeleton
import proofs.«145316_j59854664237663_2_alg».proof.Proof.Gen.Kernel.Launch
import proofs.«145316_j59854664237663_2_alg».proof.Proof.Gen.Kernel.Points
import proofs.«145316_j59854664237663_2_alg».proof.Proof.Gen.Kernel.Frame
import proofs.«145316_j59854664237663_2_alg».proof.Proof.Gen.KernelIdeal
import proofs.«145316_j59854664237663_2_alg».proof.Proof.Gen.KernelIdeal.Skeleton
import proofs.«145316_j59854664237663_2_alg».proof.Proof.Gen.KernelIdeal.Launch
import proofs.«145316_j59854664237663_2_alg».proof.Proof.Gen.KernelIdeal.Points
import proofs.«145316_j59854664237663_2_alg».proof.Proof.Gen.KernelIdeal.Frame
import proofs.«145316_j59854664237663_2_alg».proof.Proof.Gen.ReferenceIdeal
import proofs.«145316_j59854664237663_2_alg».proof.Proof.Gen.ReferenceIdeal.Run
import proofs.«145316_j59854664237663_2_alg».proof.Proof.Gen.ReferenceIdeal.Read
import proofs.«145316_j59854664237663_2_alg».proof.Proof.Gen.Pre_finite_inputs
import proofs.«145316_j59854664237663_2_alg».proof.Proof.KernelRun
import proofs.«145316_j59854664237663_2_alg».proof.Proof.RefValue
import Idealize.ShloMosaic.Adequacy
import Idealize.ShloMosaic.Init

noncomputable section

namespace Cert.Proof

open Idealize.ShloMosaic Idealize.ShloMosaic.TcCoe Idealize.SL.Sem

/-- The layer's result written over the kernel program's operation records and over the reference's is one
    function: the records name the same dimensions. -/
theorem results_agree (xu : FVec Ideal ⟨2, ![100000, 128]⟩ .f32) (xp : FVec Ideal ⟨2, ![50000, 128]⟩ .f32)
    (w2 w3 w4 w5 : FVec Ideal ⟨2, ![128, 128]⟩ .f32) (e6 e7 e8 e9 : (⟨1, ![1000000]⟩ : Shape).Idx → BitVec 32) :
    Cert.ReferenceIdeal.Whole.result xu xp w2 w3 w4 w5 e6 e7 e8 e9
      = Cert.KernelIdeal.Chain.result xu xp w2 w3 w4 w5 e6 e7 e8 e9 := rfl

theorem frame_kernel : Cert.frame_Kernel := fun m ρ _ => Cert.Kernel.Gen.frame m ρ

theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the layer's result of those arguments. -/
theorem algebraic : Cert.algebraic_KernelIdeal_ReferenceIdeal := by
  intro m ρ m' ρ' _ hagree
  refine ⟨fun c => Cert.KernelIdeal.Chain.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [a0, a1, a2, a3, a4, a5, a6, a7, a8, a9]
  exact (Cert.ReferenceIdeal.Whole.run_term_eq _ _ _ _ _ _ _ _ _ _).trans (results_agree _ _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
